-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x7 .f32) (main_arg5 : FVec F S7 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S5000x128 : Shape := ⟨2, ![5000, 128]⟩
abbrev S5000x1 : Shape := ⟨2, ![5000, 1]⟩
abbrev S5000x16 : Shape := ⟨2, ![5000, 16]⟩
abbrev S3300000x16 : Shape := ⟨2, ![3300000, 16]⟩
abbrev S1x16 : Shape := ⟨2, ![1, 16]⟩
abbrev S100000x7 : Shape := ⟨2, ![100000, 7]⟩
abbrev S5000x7 : Shape := ⟨2, ![5000, 7]⟩
abbrev S3300000x7 : Shape := ⟨2, ![3300000, 7]⟩
abbrev S1x7 : Shape := ⟨2, ![1, 7]⟩

abbrev nBuf : Space → Nat
  | .hbm => 81
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S3300000, .i32⟩
  | .hbm, ⟨17, _⟩ => ⟨S3300000, .i1⟩
  | .hbm, ⟨18, _⟩ => ⟨S_, .i32⟩
  | .hbm, ⟨19, _⟩ => ⟨S3300000, .i32⟩
  | .hbm, ⟨20, _⟩ => ⟨S3300000, .i32⟩
  | .hbm, ⟨21, _⟩ => ⟨S3300000, .i32⟩
  | .hbm, ⟨22, _⟩ => ⟨S3300000x1, .i32⟩
  | .hbm, ⟨23, _⟩ => ⟨S_, .f32⟩
  | .hbm, ⟨24, _⟩ => ⟨S3300000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x16, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000x16, .f32⟩
  | .hbm, ⟨45, _⟩ => ⟨S_, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S100000x16, .f32⟩
  | .hbm, ⟨56, _⟩ => ⟨S1x16, .f32⟩
  | .hbm, ⟨57, _⟩ => ⟨S100000x16, .f32⟩
  | .hbm, ⟨58, _⟩ => ⟨S100000x7, .f32⟩
  | .hbm, ⟨59, _⟩ => ⟨S_, .i32⟩
  | .hbm, ⟨60, _⟩ => ⟨S3300000, .i32⟩
  | .hbm, ⟨61, _⟩ => ⟨S3300000, .i1⟩
  | .hbm, ⟨62, _⟩ => ⟨S_, .i32⟩
  | .hbm, ⟨63, _⟩ => ⟨S3300000, .i32⟩
  | .hbm, ⟨64, _⟩ => ⟨S3300000, .i32⟩
  | .hbm, ⟨65, _⟩ => ⟨S3300000, .i32⟩
  | .hbm, ⟨66, _⟩ => ⟨S3300000x1, .i32⟩
  | .hbm, ⟨67, _⟩ => ⟨S3300000x7, .f32⟩
  | .hbm, ⟨68, _⟩ => ⟨S_, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S100000x7, .f32⟩
  | .hbm, ⟨79, _⟩ => ⟨S1x7, .f32⟩
  | .hbm, ⟨80, _⟩ => ⟨S100000x7, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S1x16, .f32⟩
  | .local _ .vmem, ⟨10, _⟩ => ⟨S5000x1, .f32⟩
  | .local _ .vmem, ⟨11, _⟩ => ⟨S5000x1, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S16x7, .f32⟩
  | .local _ .vmem, ⟨17, _⟩ => ⟨S5000x1, .f32⟩
  | .local _ .vmem, ⟨18, _⟩ => ⟨S5000x1, .f32⟩
  | .local _ .vmem, ⟨19, _⟩ => ⟨S5000x7, .f32⟩
  | .local _ .vmem, ⟨20, _⟩ => ⟨S5000x7, .f32⟩
  | .local _ .vmem, ⟨21, _⟩ => ⟨S5000x7, .f32⟩
  | .local _ .vmem, ⟨22, _⟩ => ⟨S5000x7, .f32⟩
  | .local _ .vmem, ⟨23, _⟩ => ⟨S1x7, .f32⟩
  | .local _ .vmem, ⟨24, _⟩ => ⟨S5000x1, .f32⟩
  | .local _ .vmem, ⟨25, _⟩ => ⟨S5000x1, .f32⟩
  | .local _ .vmem, ⟨26, _⟩ => ⟨S5000x7, .f32⟩
  | .local _ .vmem, ⟨27, _⟩ => ⟨S5000x7, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_c_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_c_12 : Ref sig .tc := ⟨.hbm, 70, rfl⟩
abbrev main_v48 : Ref sig .tc := ⟨.hbm, 71, rfl⟩
abbrev main_v49 : Ref sig .tc := ⟨.hbm, 72, rfl⟩
abbrev main_c_13 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x7 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S_S3300000 : S_.BroadcastsInDim S3300000 (![] : Fin 0 → Fin S3300000.rank)
  bcast_S3300000_S3300000x1_0 : S3300000.BroadcastsInDim S3300000x1 (![0] : Fin 1 → Fin S3300000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x7_S16x7_0_0 : ∀ a, (![0, 0] : Fin 2 → Nat) a + S16x7.size a ≤ S16x7.size a
  h_S16x7 : 0 < S16x7.numel
  broadcasts_S5000x1_S5000x7 : S5000x1.Broadcasts S5000x7
  inb_S5000x7_S5000x7_0_0 : ∀ a, (![0, 0] : Fin 2 → Nat) a + S5000x7.size a ≤ S5000x7.size a
  h_S5000x7 : 0 < S5000x7.numel
  bcast_S_S100000x7 : S_.BroadcastsInDim S100000x7 (![] : Fin 0 → Fin S100000x7.rank)
  shapeCasts_S7_S1x7 : S7.ShapeCasts S1x7
  shapeCasts_S5000x7_S5000x7 : S5000x7.ShapeCasts S5000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S5000x7 : S1x7.Broadcasts S5000x7
  scatter_S100000_S3300000x1_S3300000_n_0_0_1_wf : ScatterDims.WF S100000 S3300000x1 S3300000 [] [0] [0] 1
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x7_S5000x7_1_0_0_1_n_n_wf : DotDims.WF S5000x16 S16x7 S5000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x7.size a ≤ S16x7.size a
  hwx2_1 : ∀ i : grid2.Coords, EltTy.bits .f32 = 32 ∨ (Rect.block (s := S16x7) S16x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x7.size a ≤ S100000x7.size a
  hwx2_3 : ∀ i : grid2.Coords, EltTy.bits .f32 = 32 ∨ (Rect.block (s := S100000x7) S5000x7.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x7.size a ≤ S100000x7.size a
  hwx3_0 : ∀ i : grid3.Coords, EltTy.bits .f32 = 32 ∨ (Rect.block (s := S100000x7) S5000x7.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x7.size a ≤ S1x7.size a
  hwx3_1 : ∀ i : grid3.Coords, EltTy.bits .f32 = 32 ∨ (Rect.block (s := S1x7) S1x7.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x7.size a ≤ S100000x7.size a
  hwx3_3 : ∀ i : grid3.Coords, EltTy.bits .f32 = 32 ∨ (Rect.block (s := S100000x7) S5000x7.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v38) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S5000x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v54) S5000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v20) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v56) S5000x7.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩

abbrev nBuf : Space → Nat
  | .hbm => 153
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x7, .f32⟩
  | 5 => ⟨S7, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S_, .f32⟩
  | 14 => ⟨S100000, .f32⟩
  | 15 => ⟨S_, .i32⟩
  | 16 => ⟨S3300000, .i32⟩
  | 17 => ⟨S3300000, .i1⟩
  | 18 => ⟨S_, .i32⟩
  | 19 => ⟨S3300000, .i32⟩
  | 20 => ⟨S3300000, .i32⟩
  | 21 => ⟨S3300000, .i32⟩
  | 22 => ⟨S3300000x1, .i32⟩
  | 23 => ⟨S_, .f32⟩
  | 24 => ⟨S3300000, .f32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S100000x16, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x16, .f32⟩
  | 63 => ⟨S3300000x1, .f32⟩
  | 64 => ⟨S3300000x16, .f32⟩
  | 65 => ⟨S3300000x16, .f32⟩
  | 66 => ⟨S_, .f32⟩
  | 67 => ⟨S100000x16, .f32⟩
  | 68 => ⟨S_, .i32⟩
  | 69 => ⟨S3300000, .i32⟩
  | 70 => ⟨S3300000, .i1⟩
  | 71 => ⟨S_, .i32⟩
  | 72 => ⟨S3300000, .i32⟩
  | 73 => ⟨S3300000, .i32⟩
  | 74 => ⟨S3300000, .i32⟩
  | 75 => ⟨S3300000x1, .i32⟩
  | 76 => ⟨S100000x16, .f32⟩
  | 77 => ⟨S1x16, .f32⟩
  | 78 => ⟨S100000x16, .f32⟩
  | 79 => ⟨S100000x16, .f32⟩
  | 80 => ⟨S_, .f32⟩
  | 81 => ⟨S100000x16, .f32⟩
  | 82 => ⟨S100000x16, .f32⟩
  | 83 => ⟨S_, .f32⟩
  | 84 => ⟨S100000, .f32⟩
  | 85 => ⟨S_, .i32⟩
  | 86 => ⟨S3300000, .i32⟩
  | 87 => ⟨S3300000, .i1⟩
  | 88 => ⟨S_, .i32⟩
  | 89 => ⟨S3300000, .i32⟩
  | 90 => ⟨S3300000, .i32⟩
  | 91 => ⟨S3300000, .i32⟩
  | 92 => ⟨S3300000x1, .i32⟩
  | 93 => ⟨S_, .f32⟩
  | 94 => ⟨S3300000, .f32⟩
  | 95 => ⟨S100000, .f32⟩
  | 96 => ⟨S_, .f32⟩
  | 97 => ⟨S100000, .f32⟩
  | 98 => ⟨S100000, .i1⟩
  | 99 => ⟨S100000, .f32⟩
  | 100 => ⟨S_, .f32⟩
  | 101 => ⟨S_, .f32⟩
  | 102 => ⟨S100000, .f32⟩
  | 103 => ⟨S100000, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000, .f32⟩
  | 113 => ⟨S_, .i32⟩
  | 114 => ⟨S3300000, .i32⟩
  | 115 => ⟨S3300000, .i1⟩
  | 116 => ⟨S_, .i32⟩
  | 117 => ⟨S3300000, .i32⟩
  | 118 => ⟨S3300000, .i32⟩
  | 119 => ⟨S3300000, .i32⟩
  | 120 => ⟨S3300000x1, .i32⟩
  | 121 => ⟨S3300000, .f32⟩
  | 122 => ⟨S3300000, .f32⟩
  | 123 => ⟨S100000x7, .f32⟩
  | 124 => ⟨S_, .i32⟩
  | 125 => ⟨S3300000, .i32⟩
  | 126 => ⟨S3300000, .i1⟩
  | 127 => ⟨S_, .i32⟩
  | _ => ⟨S100000x128, .f32⟩

abbrev hbmTy0_1 (i : Nat) : BufTy := match i % 128 with
  | 0 => ⟨S3300000, .i32⟩
  | 1 => ⟨S3300000, .i32⟩
  | 2 => ⟨S3300000, .i32⟩
  | 3 => ⟨S3300000x1, .i32⟩
  | 4 => ⟨S3300000x7, .f32⟩
  | 5 => ⟨S3300000x1, .f32⟩
  | 6 => ⟨S3300000x7, .f32⟩
  | 7 => ⟨S3300000x7, .f32⟩
  | 8 => ⟨S_, .f32⟩
  | 9 => ⟨S100000x7, .f32⟩
  | 10 => ⟨S_, .i32⟩
  | 11 => ⟨S3300000, .i32⟩
  | 12 => ⟨S3300000, .i1⟩
  | 13 => ⟨S_, .i32⟩
  | 14 => ⟨S3300000, .i32⟩
  | 15 => ⟨S3300000, .i32⟩
  | 16 => ⟨S3300000, .i32⟩
  | 17 => ⟨S3300000x1, .i32⟩
  | 18 => ⟨S100000x7, .f32⟩
  | 19 => ⟨S1x7, .f32⟩
  | 20 => ⟨S100000x7, .f32⟩
  | 21 => ⟨S100000x7, .f32⟩
  | 22 => ⟨S_, .f32⟩
  | 23 => ⟨S100000x7, .f32⟩
  | 24 => ⟨S100000x7, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_c_14 : Ref sig .tc := ⟨.hbm, 85, rfl⟩
abbrev main_v59 : Ref sig .tc := ⟨.hbm, 86, rfl⟩
abbrev main_v60 : Ref sig .tc := ⟨.hbm, 87, rfl⟩
abbrev main_c_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_16 : Ref sig .tc := ⟨.hbm, 93, rfl⟩
abbrev main_v65 : Ref sig .tc := ⟨.hbm, 94, rfl⟩
abbrev main_v66 : Ref sig .tc := ⟨.hbm, 95, rfl⟩
abbrev main_cst_17 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_18 : Ref sig .tc := ⟨.hbm, 100, rfl⟩
abbrev main_call2_v0 : Ref sig .tc := ⟨.hbm, 101, rfl⟩
abbrev main_call2_v1 : Ref sig .tc := ⟨.hbm, 102, rfl⟩
abbrev main_v70 : Ref sig .tc := ⟨.hbm, 103, rfl⟩
abbrev main_c_19 : Ref sig .tc := ⟨.hbm, 104, rfl⟩
abbrev main_v71 : Ref sig .tc := ⟨.hbm, 105, rfl⟩
abbrev main_v72 : Ref sig .tc := ⟨.hbm, 106, rfl⟩
abbrev main_c_20 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_21 : Ref sig .tc := ⟨.hbm, 113, rfl⟩
abbrev main_v78 : Ref sig .tc := ⟨.hbm, 114, rfl⟩
abbrev main_v79 : Ref sig .tc := ⟨.hbm, 115, rfl⟩
abbrev main_c_22 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_23 : Ref sig .tc := ⟨.hbm, 124, rfl⟩
abbrev main_v87 : Ref sig .tc := ⟨.hbm, 125, rfl⟩
abbrev main_v88 : Ref sig .tc := ⟨.hbm, 126, rfl⟩
abbrev main_c_24 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_25 : Ref sig .tc := ⟨.hbm, 136, rfl⟩
abbrev main_v97 : Ref sig .tc := ⟨.hbm, 137, rfl⟩
abbrev main_c_26 : Ref sig .tc := ⟨.hbm, 138, rfl⟩
abbrev main_v98 : Ref sig .tc := ⟨.hbm, 139, rfl⟩
abbrev main_v99 : Ref sig .tc := ⟨.hbm, 140, rfl⟩
abbrev main_c_27 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_call3_cst : Ref sig .tc := ⟨.hbm, 150, rfl⟩
abbrev main_call3_v0 : Ref sig .tc := ⟨.hbm, 151, rfl⟩
abbrev main_v108 : Ref sig .tc := ⟨.hbm, 152, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The idealized kernel program's run with its result array named.

  The program is nine segments in a row: host operations, then four grid regions with host operations between
  them. At every segment boundary every unscoped buffer holds a known contents (a fold from the launch memory:
  a stretch of host operations applies them; a region leaves its arrays at what its write-backs leave and every
  other buffer as it was). After the last segment the result array therefore holds the last boundary's contents
  at its buffer, and the six argument arrays hold what they held at launch.
-/
import proofs.«156002_j63445256896634_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run_result : θ_run defs (onTc (τ := τ) (main (F := F))) ⟨m, fun _ => 0, ρ⟩ (fun r => ∀ c : Dev nD,
      r.2.mem ((c.tc : Thread nD τ).loc main_v56) = W9 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v56 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.LibRows.lean ====
/-
  Row-indexed gather and accumulating scatter read at an index.

  A table of rows is gathered, or accumulated into, by a column of start indices (one signed word per
  row of the updates): the dimension numbers are those of `x[idx]` and of `segment_sum` along the
  leading axis. The gather reads the row at the start word, read signed and clamped into range; the
  scatter adds to entry `(n, …)` the updates `(e, …)` whose start word, read signed, is `n`.
-/
import Idealize.ShloMosaic.PureOps.Ideal
import Idealize.ShloMosaic.Lib.ValueIdx

noncomputable section

open scoped BigOperators

namespace Cert.Rows

open Idealize.ShloMosaic Idealize.ShloMosaic.ValueIdx

/-! Facts about axis numbers, decided once at the literal ranks. -/
private theorem fin2_one_ne_zero : (1 : Fin 2) ≠ 0 := by decide
private theorem fin3_one_ne_zero : (1 : Fin 3) ≠ 0 := by decide
private theorem fin3_two_ne_zero : (2 : Fin 3) ≠ 0 := by decide

/-- An axis is kept exactly when it is not among the removed ones. -/
private theorem mem_kept {s : Shape} (axes : List (Fin s.rank)) (a : Fin s.rank) : a ∈ s.kept axes ↔ a ∉ axes := by
  simp [Shape.kept, List.mem_filter, List.mem_finRange]

/-- Gather of whole rows of a rank-2 table `[N, C]` at a column `[M, 1]` of start indices. -/
abbrev gather2 (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows at `(e, a)`: the table at the row the start word `idx[e, 0]` names, read signed
    and clamped into `[0, N − 1]`, column `a`. -/
theorem gather2_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (a : Fin C) :
    Host.gather (gather2 N C M wf) x idx (ix2 e a)
      = x (ix2 (⟨min (idx (ix2 e (0 : Fin 1))).toInt.toNat (N - 1), by omega⟩ : Fin N) a) := by
  unfold Host.gather
  congr 1
  funext ax
  refine Fin.ext ?_
  match ax with
  | ⟨0, _⟩ =>
    show (gather2 N C M wf).start (ix2 e a) idx 0 + (gather2 N C M wf).batchCoord (ix2 e a) 0
      + (gather2 N C M wf).offCoord (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather2 N C M wf).startIndexMap from List.mem_singleton.mpr rfl)]
    have hsi : (gather2 N C M wf).siIdx (ix2 e a) ⟨List.idxOf (0 : Fin 2) (gather2 N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gather2 N C M wf).start (ix2 e a) idx 1 + (gather2 N C M wf).batchCoord (ix2 e a) 1
      + (gather2 N C M wf).offCoord (ix2 e a) 1 = _
    rw [GatherDims.batchCoord_eq_zero _ _ _ List.not_mem_nil]
    unfold GatherDims.start
    rw [dif_neg (show (1 : Fin 2) ∉ (gather2 N C M wf).startIndexMap from fun h => fin2_one_ne_zero (List.mem_singleton.mp h))]
    unfold GatherDims.offCoord
    rw [dif_pos (show (1 : Fin 2) ∈ (gather2 N C M wf).sKept from (GatherDims.mem_sKept _ _).2 ⟨fun h => fin2_one_ne_zero (List.mem_singleton.mp h), List.not_mem_nil⟩)]
    simp only [Nat.zero_add, Nat.add_zero]
    rfl

/-- Gather of whole slabs of a rank-3 table `[N, B, C]` at a column `[M, 1]` of start indices. -/
abbrev gather3 (N B C M : Nat)
    (wf : GatherDims.WF ⟨3, ![N, B, C]⟩ ⟨2, ![M, 1]⟩ ⟨3, ![M, B, C]⟩ [1, 2] [0] [] [0] [] 1 ![1, B, C]) :
    GatherDims ⟨3, ![N, B, C]⟩ ⟨2, ![M, 1]⟩ ⟨3, ![M, B, C]⟩ where
  offsetDims := [1, 2]
  collapsedSliceDims := [0]
  operandBatchingDims := []
  startIndicesBatchingDims := []
  startIndexMap := [0]
  indexVectorDim := 1
  sliceSizes := ![1, B, C]
  wf := wf

/-- The gather of slabs at `(e, b, a)`. -/
theorem gather3_apply {α : Type} {N B C M w : Nat} (hN : 0 < N)
    (wf : GatherDims.WF ⟨3, ![N, B, C]⟩ ⟨2, ![M, 1]⟩ ⟨3, ![M, B, C]⟩ [1, 2] [0] [] [0] [] 1 ![1, B, C])
    (x : (⟨3, ![N, B, C]⟩ : Shape).Idx → α) (idx : IVec ⟨2, ![M, 1]⟩ w) (e : Fin M) (b : Fin B) (a : Fin C) :
    Host.gather (gather3 N B C M wf) x idx (ix3 e b a)
      = x (ix3 (⟨min (idx (ix2 e (0 : Fin 1))).toInt.toNat (N - 1), by omega⟩ : Fin N) b a) := by
  unfold Host.gather
  congr 1
  funext ax
  refine Fin.ext ?_
  match ax with
  | ⟨0, _⟩ =>
    show (gather3 N B C M wf).start (ix3 e b a) idx 0 + (gather3 N B C M wf).batchCoord (ix3 e b a) 0
      + (gather3 N B C M wf).offCoord (ix3 e b a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (gather3 N B C M wf).startIndexMap from List.mem_singleton.mpr rfl)]
    have hsi : (gather3 N B C M wf).siIdx (ix3 e b a) ⟨List.idxOf (0 : Fin 3) (gather3 N B C M wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show (gather3 N B C M wf).start (ix3 e b a) idx 1 + (gather3 N B C M wf).batchCoord (ix3 e b a) 1
      + (gather3 N B C M wf).offCoord (ix3 e b a) 1 = _
    rw [GatherDims.batchCoord_eq_zero _ _ _ List.not_mem_nil]
    unfold GatherDims.start
    rw [dif_neg (show (1 : Fin 3) ∉ (gather3 N B C M wf).startIndexMap from
      fun h => fin3_one_ne_zero (List.mem_singleton.mp h))]
    unfold GatherDims.offCoord
    rw [dif_pos (show (1 : Fin 3) ∈ (gather3 N B C M wf).sKept from (GatherDims.mem_sKept _ _).2
      ⟨fun h => fin3_one_ne_zero (List.mem_singleton.mp h), List.not_mem_nil⟩)]
    simp only [Nat.zero_add, Nat.add_zero]
    rfl
  | ⟨2, _⟩ =>
    show (gather3 N B C M wf).start (ix3 e b a) idx 2 + (gather3 N B C M wf).batchCoord (ix3 e b a) 2
      + (gather3 N B C M wf).offCoord (ix3 e b a) 2 = _
    rw [GatherDims.batchCoord_eq_zero _ _ _ List.not_mem_nil]
    unfold GatherDims.start
    rw [dif_neg (show (2 : Fin 3) ∉ (gather3 N B C M wf).startIndexMap from
      fun h => fin3_two_ne_zero (List.mem_singleton.mp h))]
    unfold GatherDims.offCoord
    rw [dif_pos (show (2 : Fin 3) ∈ (gather3 N B C M wf).sKept from (GatherDims.mem_sKept _ _).2
      ⟨fun h => fin3_two_ne_zero (List.mem_singleton.mp h), List.not_mem_nil⟩)]
    simp only [Nat.zero_add, Nat.add_zero]
    rfl

/-- Accumulating scatter of rows `[M, C]` into a rank-2 table `[N, C]` at a column `[M, 1]` of start indices. -/
abbrev scatter2 (N C M : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- An update lands on index `i` exactly when, on every axis, its start plus its window coordinate is
    `i`'s coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `(e, c)` lands on `(n, k)` exactly when its start word, read signed, is `n` and `c = k`:
    axis 0 starts at the word and has window coordinate 0 (it is an inserted axis), axis 1 starts at 0 and
    has window coordinate `c`. -/
theorem scatter2_resultIdx {N C M w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (k : Fin C) :
    (scatter2 N C M wf).resultIdx? (ix2 e c) idx = some (ix2 n k)
      ↔ (idx (ix2 e (0 : Fin 1))).toInt = (n.val : ℤ) ∧ c = k := by
  have hs0 : (scatter2 N C M wf).start (ix2 e c) idx (0 : Fin 2) = (idx (ix2 e (0 : Fin 1))).toInt := by
    unfold ScatterDims.start
    rw [dif_pos (show (0 : Fin 2) ∈ (scatter2 N C M wf).scatterDimsToOperandDims from List.mem_singleton.mpr rfl)]
    have hsi : (scatter2 N C M wf).siIdx (ix2 e c) ⟨List.idxOf (0 : Fin 2) (scatter2 N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter2 N C M wf).window (ix2 e c) (0 : Fin 2) = 0 := by
    unfold ScatterDims.window
    rw [dif_neg (fun h => (mem_kept _ _).1 h (List.mem_singleton.mpr rfl))]
  have hs1 : (scatter2 N C M wf).start (ix2 e c) idx (1 : Fin 2) = 0 := by
    unfold ScatterDims.start
    rw [dif_neg (fun h => fin2_one_ne_zero (List.mem_singleton.mp h))]
  have hw1 : (scatter2 N C M wf).window (ix2 e c) (1 : Fin 2) = c.val := by
    unfold ScatterDims.window
    rw [dif_pos (show (1 : Fin 2) ∈ (scatter2 N C M wf).sKept from
      (mem_kept _ _).2 (fun h => fin2_one_ne_zero (List.mem_singleton.mp h)))]
    rfl
  rw [resultIdx?_eq_some_iff]
  constructor
  · intro h
    have h0 := h (0 : Fin 2)
    have h1 := h (1 : Fin 2)
    rw [hs0, hw0] at h0
    rw [hs1, hw1] at h1
    have h0' : (idx (ix2 e (0 : Fin 1))).toInt + ((0 : ℕ) : ℤ) = (n.val : ℤ) := h0
    have h1' : (0 : ℤ) + (c.val : ℤ) = (k.val : ℤ) := h1
    refine ⟨by simpa using h0', Fin.ext ?_⟩
    have : (c.val : ℤ) = (k.val : ℤ) := by simpa using h1'
    exact_mod_cast this
  · rintro ⟨h0, rfl⟩ a
    match a with
    | ⟨0, _⟩ =>
      show (scatter2 N C M wf).start (ix2 e c) idx (0 : Fin 2)
        + ((scatter2 N C M wf).window (ix2 e c) (0 : Fin 2) : ℤ) = (n.val : ℤ)
      rw [hs0, hw0, h0]; simp
    | ⟨1, _⟩ =>
      show (scatter2 N C M wf).start (ix2 e c) idx (1 : Fin 2)
        + ((scatter2 N C M wf).window (ix2 e c) (1 : Fin 2) : ℤ) = (c.val : ℤ)
      rw [hs1, hw1]; simp

/-- The accumulated table at `(n, k)`: the operand there plus the updates `(e, k)` of the rows `e` whose
    start word, read signed, is `n`. -/
theorem scatterAdd2_apply {N C M w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (k : Fin C) :
    Ideal.hostScatterAdd (scatter2 N C M wf) x idx upd (ix2 n k)
      = x (ix2 n k) + ∑ e : Fin M, if (idx (ix2 e (0 : Fin 1))).toInt = (n.val : ℤ) then upd (ix2 e k) else 0 := by
  unfold Ideal.hostScatterAdd
  congr 1
  rw [Finset.sum_filter, sum_idx2]
  refine Finset.sum_congr rfl fun e _ => ?_
  simp only [scatter2_resultIdx]
  by_cases h : (idx (ix2 e (0 : Fin 1))).toInt = (n.val : ℤ)
  · simp [h]
  · simp [h]

/-- Accumulating scatter of slabs `[M, B, C]` into a rank-3 table `[N, B, C]`. -/
abbrev scatter3 (N B C M : Nat)
    (wf : ScatterDims.WF ⟨3, ![N, B, C]⟩ ⟨2, ![M, 1]⟩ ⟨3, ![M, B, C]⟩ [1, 2] [0] [0] 1) :
    ScatterDims ⟨3, ![N, B, C]⟩ ⟨2, ![M, 1]⟩ ⟨3, ![M, B, C]⟩ where
  updateWindowDims := [1, 2]
  insertedWindowDims := [0]
  scatterDimsToOperandDims := [0]
  indexVectorDim := 1
  wf := wf

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
private theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An update `(e, b', c)` lands on `(n, b, k)` exactly when its start word, read signed, is `n`, `c = k`
    and `b' = b`. -/
theorem scatter3_resultIdx {N B C M w : Nat}
    (wf : ScatterDims.WF ⟨3, ![N, B, C]⟩ ⟨2, ![M, 1]⟩ ⟨3, ![M, B, C]⟩ [1, 2] [0] [0] 1)
    (idx : IVec ⟨2, ![M, 1]⟩ w) (e : Fin M) (b' : Fin B) (c : Fin C) (n : Fin N) (b : Fin B) (k : Fin C) :
    (scatter3 N B C M wf).resultIdx? (ix3 e b' c) idx = some (ix3 n b k)
      ↔ (idx (ix2 e (0 : Fin 1))).toInt = (n.val : ℤ) ∧ c = k ∧ b' = b := by
  have hs0 : (scatter3 N B C M wf).start (ix3 e b' c) idx (0 : Fin 3) = (idx (ix2 e (0 : Fin 1))).toInt := by
    unfold ScatterDims.start
    rw [dif_pos (show (0 : Fin 3) ∈ (scatter3 N B C M wf).scatterDimsToOperandDims from List.mem_singleton.mpr rfl)]
    have hsi : (scatter3 N B C M wf).siIdx (ix3 e b' c) ⟨List.idxOf (0 : Fin 3) (scatter3 N B C M wf).scatterDimsToOperandDims,
        List.idxOf_lt_length_iff.2 (List.mem_singleton.mpr rfl)⟩ = ix2 e (0 : Fin 1) := by
      funext d; refine Fin.ext ?_
      match d with
      | ⟨0, _⟩ => rfl
      | ⟨1, _⟩ => rfl
    rw [hsi]
  have hw0 : (scatter3 N B C M wf).window (ix3 e b' c) (0 : Fin 3) = 0 := by
    unfold ScatterDims.window
    rw [dif_neg (fun h => (mem_kept _ _).1 h (List.mem_singleton.mpr rfl))]
  have hs1 : (scatter3 N B C M wf).start (ix3 e b' c) idx (1 : Fin 3) = 0 := by
    unfold ScatterDims.start
    rw [dif_neg (fun h => fin3_one_ne_zero (List.mem_singleton.mp h))]
  have hw1 : (scatter3 N B C M wf).window (ix3 e b' c) (1 : Fin 3) = b'.val := by
    unfold ScatterDims.window
    rw [dif_pos (show (1 : Fin 3) ∈ (scatter3 N B C M wf).sKept from
      (mem_kept _ _).2 (fun h => fin3_one_ne_zero (List.mem_singleton.mp h)))]
    rfl
  have hs2 : (scatter3 N B C M wf).start (ix3 e b' c) idx (2 : Fin 3) = 0 := by
    unfold ScatterDims.start
    rw [dif_neg (fun h => fin3_two_ne_zero (List.mem_singleton.mp h))]
  have hw2 : (scatter3 N B C M wf).window (ix3 e b' c) (2 : Fin 3) = c.val := by
    unfold ScatterDims.window
    rw [dif_pos (show (2 : Fin 3) ∈ (scatter3 N B C M wf).sKept from
      (mem_kept _ _).2 (fun h => fin3_two_ne_zero (List.mem_singleton.mp h)))]
    rfl
  rw [resultIdx?_eq_some_iff]
  constructor
  · intro h
    have h0 := h (0 : Fin 3)
    have h1 := h (1 : Fin 3)
    have h2 := h (2 : Fin 3)
    rw [hs0, hw0] at h0
    rw [hs1, hw1] at h1
    rw [hs2, hw2] at h2
    have h0' : (idx (ix2 e (0 : Fin 1))).toInt + ((0 : ℕ) : ℤ) = (n.val : ℤ) := h0
    have h1' : (0 : ℤ) + (b'.val : ℤ) = (b.val : ℤ) := h1
    have h2' : (0 : ℤ) + (c.val : ℤ) = (k.val : ℤ) := h2
    refine ⟨by simpa using h0', Fin.ext ?_, Fin.ext ?_⟩
    · have : (c.val : ℤ) = (k.val : ℤ) := by simpa using h2'
      exact_mod_cast this
    · have : (b'.val : ℤ) = (b.val : ℤ) := by simpa using h1'
      exact_mod_cast this
  · rintro ⟨h0, rfl, rfl⟩ a
    match a with
    | ⟨0, _⟩ =>
      show (scatter3 N B C M wf).start (ix3 e b' c) idx (0 : Fin 3)
        + ((scatter3 N B C M wf).window (ix3 e b' c) (0 : Fin 3) : ℤ) = (n.val : ℤ)
      rw [hs0, hw0, h0]; simp
    | ⟨1, _⟩ =>
      show (scatter3 N B C M wf).start (ix3 e b' c) idx (1 : Fin 3)
        + ((scatter3 N B C M wf).window (ix3 e b' c) (1 : Fin 3) : ℤ) = (b'.val : ℤ)
      rw [hs1, hw1]; simp
    | ⟨2, _⟩ =>
      show (scatter3 N B C M wf).start (ix3 e b' c) idx (2 : Fin 3)
        + ((scatter3 N B C M wf).window (ix3 e b' c) (2 : Fin 3) : ℤ) = (c.val : ℤ)
      rw [hs2, hw2]; simp

/-- The accumulated table at `(n, b, k)`. -/
theorem scatterAdd3_apply {N B C M w : Nat}
    (wf : ScatterDims.WF ⟨3, ![N, B, C]⟩ ⟨2, ![M, 1]⟩ ⟨3, ![M, B, C]⟩ [1, 2] [0] [0] 1)
    (x : (⟨3, ![N, B, C]⟩ : Shape).Idx → EReal) (idx : IVec ⟨2, ![M, 1]⟩ w)
    (upd : (⟨3, ![M, B, C]⟩ : Shape).Idx → EReal) (n : Fin N) (b : Fin B) (k : Fin C) :
    Ideal.hostScatterAdd (scatter3 N B C M wf) x idx upd (ix3 n b k)
      = x (ix3 n b k) + ∑ e : Fin M, if (idx (ix2 e (0 : Fin 1))).toInt = (n.val : ℤ) then upd (ix3 e b k) else 0 := by
  unfold Ideal.hostScatterAdd
  congr 1
  rw [Finset.sum_filter, sum_idx3]
  refine Finset.sum_congr rfl fun e _ => ?_
  simp only [scatter3_resultIdx]
  by_cases h : (idx (ix2 e (0 : Fin 1))).toInt = (n.val : ℤ)
  · simp [h, ite_and]
  · simp [h]

end Cert.Rows

end
-- ==== Proof.LibRows1.lean ====
/-
  Entry-indexed gather and accumulating scatter of a vector, read at an index.

  A vector of `N` entries is gathered at, or accumulated into by, a column of `M` start indices (one signed
  word per entry of the result, respectively of the updates): the dimension numbers are those of `x[idx]`
  and of `segment_sum` on a vector. The gather reads the entry at the start word, read signed and clamped
  into range; the scatter adds to entry `n` the updates `e` whose start word, read signed, is `n`.
-/
import Idealize.ShloMosaic.PureOps.Ideal
import Idealize.ShloMosaic.Lib.ValueIdx

noncomputable section

open scoped BigOperators

namespace Cert.Rows1

open Idealize.ShloMosaic Idealize.ShloMosaic.ValueIdx

/-- An axis is kept exactly when it is not among the removed ones. -/
private theorem kept_iff {s : Shape} (axes : List (Fin s.rank)) (a : Fin s.rank) : a ∈ s.kept axes ↔ a ∉ axes := by
  simp [Shape.kept, List.mem_filter, List.mem_finRange]

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
private theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- Gather of single entries of a vector `[N]` at a column `[M, 1]` of start indices. -/
abbrev gather1 (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of entries at `e`: the vector at the entry the start word `idx[e, 0]` names, read signed
    and clamped into `[0, N − 1]`. -/
theorem gather1_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gather1 N M wf) x idx (ix1 e)
      = x (ix1 (⟨min (idx (ix2 e (0 : Fin 1))).toInt.toNat (N - 1), by omega⟩ : Fin N)) := by
  unfold Host.gather
  congr 1
  funext ax
  refine Fin.ext ?_
  match ax with
  | ⟨0, _⟩ =>
    show (gather1 N M wf).start (ix1 e) idx 0 + (gather1 N M wf).batchCoord (ix1 e) 0
      + (gather1 N M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (gather1 N M wf).startIndexMap from List.mem_singleton.mpr rfl)]
    have hsi : (gather1 N M wf).siIdx (ix1 e) ⟨List.idxOf (0 : Fin 1) (gather1 N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- Accumulating scatter of entries `[M]` into a vector `[N]` at a column `[M, 1]` of start indices. -/
abbrev scatter1 (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- An update lands on index `i` exactly when, on every axis, its start plus its window coordinate is
    `i`'s coordinate. -/
private theorem resultIdx?_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have := congrArg (fun f : s.Idx => ((f a).val : ℤ)) hf
      simp only at this
      rw [← this]; exact (Int.toNat_of_nonneg (h a).1).symm
    · intro hall
      funext a
      refine Fin.ext ?_
      show (d.start j idx a + (d.window j a : ℤ)).toNat = (i a).val
      rw [hall a]; exact Int.toNat_natCast _
  · rename_i h
    constructor
    · intro hh; exact absurd hh (by simp)
    · intro hall; exfalso; apply h; intro a; rw [hall a]
      exact ⟨Int.natCast_nonneg _, by exact_mod_cast (i a).isLt⟩

/-- An update `e` lands on `n` exactly when its start word, read signed, is `n`: the one axis starts at the
    word and has window coordinate 0 (it is an inserted axis). -/
theorem scatter1_resultIdx {N M w : Nat}
    (wf : ScatterDims.WF ⟨1, ![N]⟩ ⟨2, ![M, 1]⟩ ⟨1, ![M]⟩ [] [0] [0] 1)
    (idx : IVec ⟨2, ![M, 1]⟩ w) (e : Fin M) (n : Fin N) :
    (scatter1 N M wf).resultIdx? (ix1 e) idx = some (ix1 n)
      ↔ (idx (ix2 e (0 : Fin 1))).toInt = (n.val : ℤ) := by
  have hs0 : (scatter1 N M wf).start (ix1 e) idx (0 : Fin 1) = (idx (ix2 e (0 : Fin 1))).toInt := by
    unfold ScatterDims.start
    rw [dif_pos (show (0 : Fin 1) ∈ (scatter1 N M wf).scatterDimsToOperandDims from List.mem_singleton.mpr rfl)]
    have hsi : (scatter1 N M wf).siIdx (ix1 e) ⟨List.idxOf (0 : Fin 1) (scatter1 N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatter1 N M wf).window (ix1 e) (0 : Fin 1) = 0 := by
    unfold ScatterDims.window
    rw [dif_neg (fun h => (kept_iff _ _).1 h (List.mem_singleton.mpr rfl))]
  rw [resultIdx?_some_iff]
  constructor
  · intro h
    have h0 := h (0 : Fin 1)
    rw [hs0, hw0] at h0
    have h0' : (idx (ix2 e (0 : Fin 1))).toInt + ((0 : ℕ) : ℤ) = (n.val : ℤ) := h0
    simpa using h0'
  · intro h0 a
    match a with
    | ⟨0, _⟩ =>
      show (scatter1 N M wf).start (ix1 e) idx (0 : Fin 1)
        + ((scatter1 N M wf).window (ix1 e) (0 : Fin 1) : ℤ) = (n.val : ℤ)
      rw [hs0, hw0, h0]; simp

/-- The accumulated vector at `n`: the operand there plus the updates `e` whose start word, read signed,
    is `n`. -/
theorem scatterAdd1_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (scatter1 N M wf) x idx upd (ix1 n)
      = x (ix1 n) + ∑ e : Fin M, if (idx (ix2 e (0 : Fin 1))).toInt = (n.val : ℤ) then upd (ix1 e) else 0 := by
  unfold Ideal.hostScatterAdd
  congr 1
  rw [Finset.sum_filter, sum_idx1]
  refine Finset.sum_congr rfl fun e _ => ?_
  simp only [scatter1_resultIdx]

end Cert.Rows1

end
-- ==== Proof.LibNormSum.lean ====
/-
  Scaling a finite sum on the extended reals.

  Multiplication on the extended reals does not distribute over addition in general (`⊤ + ⊥`), but it does
  when the factor is a nonnegative real. Hence a sum accumulated at a destination and then scaled by the
  destination's factor is the sum of the terms each scaled by the factor of its own destination.
-/
import Idealize.ShloMosaic.PureOps.Ideal

noncomputable section

open scoped BigOperators

namespace Cert.NormSum

open Idealize.ShloMosaic

/-- A nonnegative real factor distributes over a finite sum of extended reals. -/
theorem mul_sum_of_nonneg_real {ι : Type*} (a : EReal) (h0 : 0 ≤ a) (ht : a ≠ ⊤) (s : Finset ι) (f : ι → EReal) :
    a * ∑ i ∈ s, f i = ∑ i ∈ s, a * f i := by
  induction s using Finset.cons_induction with
  | empty => simp
  | cons i s hi ih =>
    rw [Finset.sum_cons, Finset.sum_cons, EReal.left_distrib_of_nonneg_of_ne_top h0 ht, ih]

/-- Scaling the accumulated sum by `a(n)` is accumulating terms scaled by `a` at their own destination,
    when every term that lands on `n` has destination factor `a(n)`. -/
theorem normalized_sum_eq {M : Nat} (an : EReal) (h0 : 0 ≤ an) (ht : an ≠ ⊤) (hit : Fin M → Prop)
    [DecidablePred hit] (h ws wd : Fin M → EReal) (hd : ∀ e, hit e → wd e = an) :
    an * (0 + ∑ e : Fin M, if hit e then h e * ws e else 0)
      = 0 + ∑ e : Fin M, if hit e then h e * (ws e * wd e) else 0 := by
  rw [zero_add, zero_add, mul_sum_of_nonneg_real an h0 ht]
  refine Finset.sum_congr rfl fun e _ => ?_
  by_cases he : hit e
  · rw [if_pos he, if_pos he, hd e he, mul_comm an, mul_assoc]
  · rw [if_neg he, if_neg he, mul_zero]

/-- A finite count, accumulated on the extended reals, is a nonnegative real. -/
theorem count_finset_nonneg_real {ι : Type*} (s : Finset ι) (p : ι → Prop) [DecidablePred p] :
    ∃ r : ℝ, 0 ≤ r ∧ (∑ e ∈ s, if p e then (1 : EReal) else 0) = (r : EReal) := by
  induction s using Finset.cons_induction with
  | empty => exact ⟨0, le_rfl, by simp⟩
  | cons i s hi ih =>
    obtain ⟨r, hr0, hr⟩ := ih
    rw [Finset.sum_cons, hr]
    by_cases hp : p i
    · refine ⟨1 + r, by linarith, ?_⟩
      rw [if_pos hp, EReal.coe_add, EReal.coe_one]
    · refine ⟨r, hr0, ?_⟩
      rw [if_neg hp, zero_add]

/-- The number of indices satisfying `p`, accumulated from zero, is a nonnegative real. -/
theorem count_nonneg_real {M : Nat} (p : Fin M → Prop) [DecidablePred p] :
    ∃ r : ℝ, 0 ≤ r ∧ (0 + ∑ e : Fin M, if p e then (1 : EReal) else 0) = (r : EReal) := by
  rw [zero_add]
  exact count_finset_nonneg_real Finset.univ p

/-- The guarded inverse square root of a nonnegative real is a nonnegative real: zero at zero (the guard
    selects the constant), `1 / √r` at a positive `r`. -/
theorem guarded_rsqrt_nonneg_real (r : ℝ) (hr : 0 ≤ r) :
    ∃ r' : ℝ, 0 ≤ r' ∧
      Scalar.select (Ideal.cmp .ogt (r : EReal) 0) (Ideal.rsqrt (r : EReal)) (0 : EReal) = (r' : EReal) := by
  rcases hr.eq_or_lt with h | h
  · subst h
    refine ⟨0, le_rfl, ?_⟩
    have h0 : Ideal.cmp .ogt ((0 : ℝ) : EReal) 0 ≠ 1 := by
      show BitVec.ofBool (decide ((0 : EReal) < ((0 : ℝ) : EReal))) ≠ 1
      rw [EReal.coe_zero, decide_eq_false (lt_irrefl _)]
      decide
    unfold Scalar.select
    rw [if_neg h0, EReal.coe_zero]
  · refine ⟨(Real.sqrt r)⁻¹, inv_nonneg.2 (Real.sqrt_nonneg r), ?_⟩
    have h1 : Ideal.cmp .ogt (r : EReal) 0 = 1 := by
      show BitVec.ofBool (decide ((0 : EReal) < (r : EReal))) = 1
      rw [decide_eq_true (EReal.coe_pos.2 h)]
      rfl
    unfold Scalar.select
    rw [if_pos h1, Ideal.rsqrt_coe, if_neg (not_lt.2 hr), if_neg h.ne']

end Cert.NormSum

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibRowBias.lean ====
/-
  Adding one row to every row of a matrix, and clamping the sum below, read one entry at a time at the exact
  (extended-real) values.

  For an M×N array A and a length-N vector b the entry (p, q) of "A plus b on every row" is A(p, q) + b(q).  Two
  spellings of it occur: the vector unit's, which keeps b as a 1×N row and spreads that row over the M rows, and the
  host's, which first recasts b as a 1×N row by a broadcast along a new leading axis and then spreads it.  Both are the
  one function `addRow A (asRow b)`, where `asRow b` is b recast as a 1×N row (a reshape: the row-major order of
  [N] and [1, N] is the same).  Clamping below at a constant z is max(·, z) entry by entry; a splat of z and a
  rank-0 constant spread over the array are the same constant array.
-/
import Idealize.ShloMosaic.Lib.ValueIdx
import Idealize.ShloMosaic.Lib.Pipeline.Value
import Idealize.ShloMosaic.PureOps.Ideal

noncomputable section

namespace Cert.RowBias

open Idealize.ShloMosaic Idealize.ShloMosaic.ValueIdx

variable {M N : Nat}

/-- Entry (p, q) of A plus the row b on every row:  A(p, q) + b(0, q). -/
def addRow (A : (⟨2, ![M, N]⟩ : Shape).Idx → EReal) (b : (⟨2, ![1, N]⟩ : Shape).Idx → EReal) :
    (⟨2, ![M, N]⟩ : Shape).Idx → EReal := fun i => A i + b (ix2 0 (i 1))

/-- Entry by entry, max(Y, z). -/
def clampBelow {S : Shape} (z : EReal) (Y : S.Idx → EReal) : S.Idx → EReal := fun i => max (Y i) z

/-- A 1×N row spread over M rows reads, at (p, q), the row at (0, q). -/
theorem spreadRow_apply {α : Type} (b : (⟨2, ![1, N]⟩ : Shape).Idx → α)
    (h : (⟨2, ![1, N]⟩ : Shape).Broadcasts ⟨2, ![M, N]⟩) (j : (⟨2, ![M, N]⟩ : Shape).Idx) :
    broadcastTo ⟨2, ![M, N]⟩ b h j = b (ix2 0 (j 1)) :=
  broadcastTo_apply b h j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- The host's spread of a 1×N row over M rows (both axes kept) reads the row at (0, q). -/
theorem spreadRowInDim_apply {α : Type} (b : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h b j = b (ix2 0 (j 1)) :=
  broadcastInDim_apply ![0, 1] h b j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- A length-N vector placed along the second axis of a 1×N row reads, at (0, q), the vector at q. -/
theorem rowInDim_apply {α : Type} (x : (⟨1, ![N]⟩ : Shape).Idx → α)
    (h : (⟨1, ![N]⟩ : Shape).BroadcastsInDim ⟨2, ![1, N]⟩ ![1]) (q : Fin N) :
    broadcastInDim ⟨2, ![1, N]⟩ ![1] h x (ix2 0 q) = x (ix1 q) :=
  broadcastInDim_apply ![1] h x (ix2 0 q) (ix1 q) (fun a => match a with
    | ⟨0, _⟩ => by
        show q.val = if N = 1 then 0 else q.val
        split
        · have := q.isLt; omega
        · rfl)

/-- A length-N vector recast as a 1×N row reads, at (0, q), the vector at q. -/
theorem asRow_apply {α : Type} (x : (⟨1, ![N]⟩ : Shape).Idx → α)
    (h : (⟨1, ![N]⟩ : Shape).ShapeCasts ⟨2, ![1, N]⟩) (q : Fin N) :
    shapeCast ⟨2, ![1, N]⟩ x h (ix2 0 q) = x (ix1 q) := by
  rw [shapeCast_addUnit_apply ![N] x h (ix2 0 q)]
  exact congrArg x (funext fun a => match a with | ⟨0, _⟩ => rfl)

/-- The vector unit's "A plus the row b": the operands recast to their own shapes, the row spread, the sum. -/
theorem addf_spread_eq (A : FVec Ideal (⟨2, ![M, N]⟩ : Shape) .f32) (b : FVec Ideal (⟨2, ![1, N]⟩ : Shape) .f32)
    (hA : (⟨2, ![M, N]⟩ : Shape).ShapeCasts ⟨2, ![M, N]⟩) (hb : (⟨2, ![1, N]⟩ : Shape).ShapeCasts ⟨2, ![1, N]⟩)
    (hB : (⟨2, ![1, N]⟩ : Shape).Broadcasts ⟨2, ![M, N]⟩) :
    addf (shapeCast ⟨2, ![M, N]⟩ A hA) (broadcastTo ⟨2, ![M, N]⟩ (shapeCast ⟨2, ![1, N]⟩ b hb) hB) = addRow A b := by
  rw [shapeCast_self, shapeCast_self]
  funext j
  show FloatOps.addf (A j) (broadcastTo ⟨2, ![M, N]⟩ b hB j) = A j + b (ix2 0 (j 1))
  rw [spreadRow_apply]
  rfl

/-- The host's "A plus the vector x on every row" is "A plus the row" of x recast as a 1×N row. -/
theorem addf_hostSpread_eq (A : FVec Ideal (⟨2, ![M, N]⟩ : Shape) .f32) (x : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf A (broadcastInDim ⟨2, ![M, N]⟩ ![0, 1] h2 (broadcastInDim ⟨2, ![1, N]⟩ ![1] h1 x))
      = addRow A (shapeCast ⟨2, ![1, N]⟩ x hc) := by
  funext j
  obtain ⟨p, q, rfl⟩ : ∃ (p : Fin M) (q : Fin N), j = ix2 p q := ⟨j 0, j 1, eq_ix2 j⟩
  show FloatOps.addf (A (ix2 p q))
      (broadcastInDim ⟨2, ![M, N]⟩ ![0, 1] h2 (broadcastInDim ⟨2, ![1, N]⟩ ![1] h1 x) (ix2 p q))
    = A (ix2 p q) + shapeCast ⟨2, ![1, N]⟩ x hc (ix2 0 q)
  rw [spreadRowInDim_apply]
  show FloatOps.addf (A (ix2 p q)) (broadcastInDim ⟨2, ![1, N]⟩ ![1] h1 x (ix2 0 q))
    = A (ix2 p q) + shapeCast ⟨2, ![1, N]⟩ x hc (ix2 0 q)
  rw [rowInDim_apply, asRow_apply]
  rfl

/-- The vector unit's clamp: the maximum with a splat of the constant. -/
theorem maximumf_splat_eq {S : Shape} (Y : FVec Ideal S .f32) (bits : BitVec 32) :
    maximumf Y (broadcast S (Scalar.ofBits (F := Ideal) .f32 bits)) = clampBelow (Ideal.ofBits .f32 bits) Y := rfl

/-- The host's clamp: the maximum with the rank-0 constant spread over the array. -/
theorem maximumf_hostSplat_eq {S : Shape} (Y : FVec Ideal S .f32) (bits : BitVec 32)
    (h : (⟨0, ![]⟩ : Shape).BroadcastsInDim S ![]) :
    maximumf Y (broadcastInDim S ![] h (constant (F := Ideal) ⟨0, ![]⟩ .f32 bits)) = clampBelow (Ideal.ofBits .f32 bits) Y := rfl

end Cert.RowBias

end
-- ==== Proof.LibGraphLayer.lean ====
/-
  One graph-convolution layer, computed two ways, at the exact (extended-real) values.

  Nodes n < N carry feature rows X(n, ·) and a nonnegative real factor d(n) (the inverse square root of the node's
  degree). Edges e < M have a source and a destination word; an edge "lands on" n when its destination word, read
  signed, is n, and it reads its source row at the source word read signed and clamped into range, s(e).

  The message form scales every gathered row by the product of the two end factors before accumulating:
      out(n, k) = max( Σ_{e lands on n} (X·W)(s(e), k) · (d(s(e)) · d(t(e))) + b(k), z ),
  where t(e) is the destination word clamped into range (equal to n for an edge that lands on n).
  The factored form scales the rows of X·W by d once, accumulates, and scales the sum by d(n):
      out(n, k) = max( (Σ_{e lands on n} (X·W)(s(e), k) · d(s(e))) · d(n) + b(k), z ).
  They agree because the product of extended reals is associative and commutative and a NONNEGATIVE REAL factor
  distributes over a finite sum of extended reals (no finiteness of X or W is needed).
-/
import Idealize.ShloMosaic.PureOps.Ideal
import Idealize.ShloMosaic.PureOps.Ideal.Laws
import Idealize.ShloMosaic.Lib.ValueIdx
import Idealize.ShloMosaic.Lib.Pipeline.Value
import proofs.«156002_j63445256896634_2_alg».proof.Proof.LibRows
import proofs.«156002_j63445256896634_2_alg».proof.Proof.LibRows1
import proofs.«156002_j63445256896634_2_alg».proof.Proof.LibNormSum
import proofs.«156002_j63445256896634_2_alg».proof.Proof.LibRowDot
import proofs.«156002_j63445256896634_2_alg».proof.Proof.LibRowBias

noncomputable section

open scoped BigOperators

namespace Cert.GraphLayer

open Idealize.ShloMosaic Idealize.ShloMosaic.ValueIdx
open Cert.Rows Cert.Rows1 Cert.RowDot Cert.NormSum Cert.RowBias

variable {N K C M : Nat}

/-- The rows of X·W, row p scaled by the node factor D(p, 0). -/
def scaledProduct (X : (⟨2, ![N, K]⟩ : Shape).Idx → EReal) (W : (⟨2, ![K, C]⟩ : Shape).Idx → EReal)
    (D : (⟨2, ![N, 1]⟩ : Shape).Idx → EReal) : (⟨2, ![N, C]⟩ : Shape).Idx → EReal :=
  fun i => rowDot (rowOf X (i 0)) W (i 1) * D (ix2 (i 0) (0 : Fin 1))

/-- Row p of A scaled by the node factor D(p, 0), plus the bias row, clamped below at z. -/
def scaledBiasClamp (z : EReal) (A : (⟨2, ![N, C]⟩ : Shape).Idx → EReal) (b : (⟨2, ![1, C]⟩ : Shape).Idx → EReal)
    (D : (⟨2, ![N, 1]⟩ : Shape).Idx → EReal) : (⟨2, ![N, C]⟩ : Shape).Idx → EReal :=
  fun i => max (A i * D (ix2 (i 0) (0 : Fin 1)) + b (ix2 (0 : Fin 1) (i 1))) z

theorem scaledProduct_apply (X : (⟨2, ![N, K]⟩ : Shape).Idx → EReal) (W : (⟨2, ![K, C]⟩ : Shape).Idx → EReal)
    (D : (⟨2, ![N, 1]⟩ : Shape).Idx → EReal) (p : Fin N) (q : Fin C) :
    scaledProduct X W D (ix2 p q) = rowDot (rowOf X p) W q * D (ix2 p (0 : Fin 1)) := rfl

theorem scaledBiasClamp_apply (z : EReal) (A : (⟨2, ![N, C]⟩ : Shape).Idx → EReal) (b : (⟨2, ![1, C]⟩ : Shape).Idx → EReal)
    (D : (⟨2, ![N, 1]⟩ : Shape).Idx → EReal) (p : Fin N) (q : Fin C) :
    scaledBiasClamp z A b D (ix2 p q) = max (A (ix2 p q) * D (ix2 p (0 : Fin 1)) + b (ix2 (0 : Fin 1) q)) z := rfl

/-- A length-M vector placed along the first axis of an M×1 column reads, at (e, 0), the vector at e. -/
theorem colInDim_apply {α : Type} (x : (⟨1, ![M]⟩ : Shape).Idx → α)
    (h : (⟨1, ![M]⟩ : Shape).BroadcastsInDim ⟨2, ![M, 1]⟩ ![0]) (e : Fin M) (u : Fin 1) :
    broadcastInDim ⟨2, ![M, 1]⟩ ![0] h x (ix2 e u) = x (ix1 e) :=
  broadcastInDim_apply ![0] h x (ix2 e u) (ix1 e) (fun a => match a with
    | ⟨0, _⟩ => by
        show e.val = if M = 1 then 0 else e.val
        split
        · have := e.isLt; omega
        · rfl)

/-- An M×1 column spread over C columns (both axes kept) reads, at (e, k), the column at (e, 0). -/
theorem spreadColInDim_apply {α : Type} (v : (⟨2, ![M, 1]⟩ : Shape).Idx → α)
    (h : (⟨2, ![M, 1]⟩ : Shape).BroadcastsInDim ⟨2, ![M, C]⟩ ![0, 1]) (e : Fin M) (k : Fin C) :
    broadcastInDim ⟨2, ![M, C]⟩ ![0, 1] h v (ix2 e k) = v (ix2 e (0 : Fin 1)) :=
  broadcastInDim_apply ![0, 1] h v (ix2 e k) (ix2 e (0 : Fin 1)) (fun a => match a with
    | ⟨0, _⟩ => by
        show e.val = if M = 1 then 0 else e.val
        split
        · have := e.isLt; omega
        · rfl
    | ⟨1, _⟩ => by show (0 : Nat) = if (1 : Nat) = 1 then 0 else _; rw [if_pos rfl])

/-- A start word that names the node n, read signed and clamped into range, is n. -/
theorem clamp_of_lands (w : BitVec 32) (n : Fin N) (h : w.toInt = (n.val : ℤ)) (hlt : min w.toInt.toNat (N - 1) < N) :
    (⟨min w.toInt.toNat (N - 1), hlt⟩ : Fin N) = n := by
  apply Fin.ext
  show min w.toInt.toNat (N - 1) = n.val
  rw [h, Int.toNat_natCast]
  have := n.isLt
  omega

/-- THE LAYER LAW: the factored form (rows pre-scaled, gathered, accumulated, the sum post-scaled, bias, clamp) is
    the message form (rows gathered, each scaled by the product of its two end factors, accumulated, bias, clamp),
    when every node factor is a nonnegative real. The dimension records are any that equal the row gather, the row
    scatter, the entry gather and the plain product; the accumulator starts from zero; the bias row and the factor
    column are the bias vector and the factor vector recast. -/
theorem layer_eq (hN : 0 < N)
    (gd : GatherDims ⟨2, ![N, C]⟩ ⟨2, ![M, 1]⟩ ⟨2, ![M, C]⟩)
    (gwf : GatherDims.WF ⟨2, ![N, C]⟩ ⟨2, ![M, 1]⟩ ⟨2, ![M, C]⟩ [1] [0] [] [0] [] 1 ![1, C]) (hgd : gd = gather2 N C M gwf)
    (sd : ScatterDims ⟨2, ![N, C]⟩ ⟨2, ![M, 1]⟩ ⟨2, ![M, C]⟩)
    (swf : ScatterDims.WF ⟨2, ![N, C]⟩ ⟨2, ![M, 1]⟩ ⟨2, ![M, C]⟩ [1] [0] [0] 1) (hsd : sd = scatter2 N C M swf)
    (g1 : GatherDims ⟨1, ![N]⟩ ⟨2, ![M, 1]⟩ ⟨1, ![M]⟩)
    (g1wf : GatherDims.WF ⟨1, ![N]⟩ ⟨2, ![M, 1]⟩ ⟨1, ![M]⟩ [] [0] [] [0] [] 1 ![1]) (hg1 : g1 = gather1 N M g1wf)
    (dd : DotDims ⟨2, ![N, K]⟩ ⟨2, ![K, C]⟩ ⟨2, ![N, C]⟩) (hdd : dd = DotDims.plain N K C)
    (z : EReal) (X : FVec Ideal (⟨2, ![N, K]⟩ : Shape) .f32) (W : FVec Ideal (⟨2, ![K, C]⟩ : Shape) .f32)
    (bvec : FVec Ideal (⟨1, ![C]⟩ : Shape) .f32) (dinv : FVec Ideal (⟨1, ![N]⟩ : Shape) .f32)
    (hdinv : ∀ n : Fin N, ∃ r : ℝ, 0 ≤ r ∧ dinv (ix1 n) = (r : EReal))
    (src dst : IVec (⟨2, ![M, 1]⟩ : Shape) 32)
    (Z : FVec Ideal (⟨2, ![N, C]⟩ : Shape) .f32) (hZ : ∀ i, Z i = 0)
    (brow : FVec Ideal (⟨2, ![1, C]⟩ : Shape) .f32) (hbrow : ∀ q : Fin C, brow (ix2 (0 : Fin 1) q) = bvec (ix1 q))
    (D : FVec Ideal (⟨2, ![N, 1]⟩ : Shape) .f32) (hD : ∀ p : Fin N, D (ix2 p (0 : Fin 1)) = dinv (ix1 p))
    (h1 : (⟨1, ![M]⟩ : Shape).BroadcastsInDim ⟨2, ![M, 1]⟩ ![0])
    (h2 : (⟨2, ![M, 1]⟩ : Shape).BroadcastsInDim ⟨2, ![M, C]⟩ ![0, 1])
    (h3 : (⟨1, ![C]⟩ : Shape).BroadcastsInDim ⟨2, ![1, C]⟩ ![1])
    (h4 : (⟨2, ![1, C]⟩ : Shape).BroadcastsInDim ⟨2, ![N, C]⟩ ![0, 1]) :
    scaledBiasClamp z (Host.scatterAdd (F := Ideal) sd Z dst (Host.gather gd (scaledProduct X W D) src)) brow D
      = clampBelow z (addf
          (Host.scatterAdd (F := Ideal) sd Z dst
            (mulf (Host.gather gd (Host.dotGeneral (F := Ideal) dd none X W) src)
              (broadcastInDim ⟨2, ![M, C]⟩ ![0, 1] h2 (broadcastInDim ⟨2, ![M, 1]⟩ ![0] h1
                (mulf (Host.gather g1 dinv src) (Host.gather g1 dinv dst))))))
          (broadcastInDim ⟨2, ![N, C]⟩ ![0, 1] h4 (broadcastInDim ⟨2, ![1, C]⟩ ![1] h3 bvec))) := by
  subst hgd hsd hg1 hdd
  funext i
  obtain ⟨n, k, rfl⟩ : ∃ (n : Fin N) (k : Fin C), i = ix2 n k := ⟨i 0, i 1, eq_ix2 i⟩
  obtain ⟨r, hr0, hr⟩ := hdinv n
  rw [scaledBiasClamp_apply]
  show max (Ideal.hostScatterAdd (scatter2 N C M swf) Z dst _ (ix2 n k) * D (ix2 n (0 : Fin 1)) + brow (ix2 (0 : Fin 1) k)) z
    = max (Ideal.hostScatterAdd (scatter2 N C M swf) Z dst _ (ix2 n k)
        + broadcastInDim ⟨2, ![N, C]⟩ ![0, 1] h4 (broadcastInDim ⟨2, ![1, C]⟩ ![1] h3 bvec) (ix2 n k)) z
  rw [scatterAdd2_apply, scatterAdd2_apply, hZ, spreadRowInDim_apply]
  show max ((0 + ∑ e : Fin M, if (dst (ix2 e (0 : Fin 1))).toInt = (n.val : ℤ) then _ else 0) * D (ix2 n (0 : Fin 1)) + brow (ix2 (0 : Fin 1) k)) z
    = max ((0 + ∑ e : Fin M, if (dst (ix2 e (0 : Fin 1))).toInt = (n.val : ℤ) then _ else 0)
        + broadcastInDim ⟨2, ![1, C]⟩ ![1] h3 bvec (ix2 (0 : Fin 1) k)) z
  rw [rowInDim_apply, hbrow, hD, hr]
  congr 2
  -- the two accumulated sums, term by term
  have hL : ∀ e : Fin M, Host.gather (gather2 N C M gwf) (scaledProduct X W D) src (ix2 e k)
      = rowDot (rowOf X (⟨min (src (ix2 e (0 : Fin 1))).toInt.toNat (N - 1), by omega⟩ : Fin N)) W k
        * dinv (ix1 (⟨min (src (ix2 e (0 : Fin 1))).toInt.toNat (N - 1), by omega⟩ : Fin N)) := fun e => by
    rw [gather2_apply hN, scaledProduct_apply, hD]
  have hR : ∀ e : Fin M, mulf (Host.gather (gather2 N C M gwf) (Host.dotGeneral (F := Ideal) (DotDims.plain N K C) none X W) src)
        (broadcastInDim ⟨2, ![M, C]⟩ ![0, 1] h2 (broadcastInDim ⟨2, ![M, 1]⟩ ![0] h1
          (mulf (Host.gather (gather1 N M g1wf) dinv src) (Host.gather (gather1 N M g1wf) dinv dst)))) (ix2 e k)
      = rowDot (rowOf X (⟨min (src (ix2 e (0 : Fin 1))).toInt.toNat (N - 1), by omega⟩ : Fin N)) W k
        * (dinv (ix1 (⟨min (src (ix2 e (0 : Fin 1))).toInt.toNat (N - 1), by omega⟩ : Fin N))
          * dinv (ix1 (⟨min (dst (ix2 e (0 : Fin 1))).toInt.toNat (N - 1), by omega⟩ : Fin N))) := fun e => by
    rw [mulf_apply, gather2_apply hN, spreadColInDim_apply, colInDim_apply, mulf_apply, gather1_apply hN, gather1_apply hN]
    congr 1
    exact dotGeneral_plain_apply none .single X W _
  simp only [hL, hR]
  rw [mul_comm]
  refine (normalized_sum_eq (r : EReal) (EReal.coe_nonneg.2 hr0) (EReal.coe_ne_top r)
    (fun e => (dst (ix2 e (0 : Fin 1))).toInt = (n.val : ℤ))
    (fun e => rowDot (rowOf X (⟨min (src (ix2 e (0 : Fin 1))).toInt.toNat (N - 1), by omega⟩ : Fin N)) W k)
    (fun e => dinv (ix1 (⟨min (src (ix2 e (0 : Fin 1))).toInt.toNat (N - 1), by omega⟩ : Fin N)))
    (fun e => dinv (ix1 (⟨min (dst (ix2 e (0 : Fin 1))).toInt.toNat (N - 1), by omega⟩ : Fin N)))
    (fun e he => ?_))
  show dinv (ix1 (⟨min (dst (ix2 e (0 : Fin 1))).toInt.toNat (N - 1), _⟩ : Fin N)) = (r : EReal)
  rw [clamp_of_lands _ n he, hr]

/-- THE NODE FACTOR IS A NONNEGATIVE REAL: the degree of n, accumulated from zero by adding one per edge that lands on
    n, is a finite count, and its inverse square root guarded at zero is a nonnegative real. The accumulator, the
    comparison's right side and the guard's value are zero arrays, the updates an array of ones. -/
theorem nodeFactor_nonneg_real
    (s1 : ScatterDims ⟨1, ![N]⟩ ⟨2, ![M, 1]⟩ ⟨1, ![M]⟩)
    (s1wf : ScatterDims.WF ⟨1, ![N]⟩ ⟨2, ![M, 1]⟩ ⟨1, ![M]⟩ [] [0] [0] 1) (hs1 : s1 = scatter1 N M s1wf)
    (Z0 Zc Zs : FVec Ideal (⟨1, ![N]⟩ : Shape) .f32) (hZ0 : ∀ i, Z0 i = 0) (hZc : ∀ i, Zc i = 0) (hZs : ∀ i, Zs i = 0)
    (One : FVec Ideal (⟨1, ![M]⟩ : Shape) .f32) (hOne : ∀ i, One i = 1)
    (dst : IVec (⟨2, ![M, 1]⟩ : Shape) 32) (n : Fin N) :
    ∃ r : ℝ, 0 ≤ r ∧
      select (cmpf .ogt (Host.scatterAdd (F := Ideal) s1 Z0 dst One) Zc) (Host.rsqrt (Host.scatterAdd (F := Ideal) s1 Z0 dst One)) Zs (ix1 n)
        = (r : EReal) := by
  subst hs1
  show ∃ r : ℝ, 0 ≤ r ∧ Scalar.select (Ideal.cmp .ogt (Ideal.hostScatterAdd (scatter1 N M s1wf) Z0 dst One (ix1 n)) (Zc (ix1 n)))
      (Ideal.rsqrt (Ideal.hostScatterAdd (scatter1 N M s1wf) Z0 dst One (ix1 n))) (Zs (ix1 n)) = (r : EReal)
  rw [scatterAdd1_apply, hZ0, hZc, hZs]
  simp only [hOne]
  obtain ⟨c, hc0, hc⟩ := count_nonneg_real (fun e : Fin M => (dst (ix2 e (0 : Fin 1))).toInt = (n.val : ℤ))
  rw [hc]
  exact guarded_rsqrt_nonneg_real c hc0

end Cert.GraphLayer

end
-- ==== Proof.LibColumn.lean ====
/-
  A vector kept as a column, read one entry at a time.

  Summing an a×b array along its rows and keeping the axis gives an a×1 column; the column is then spread back over
  the b columns to scale each row.  Two index facts carry this:  a length-a vector recast as an a×1 column holds, at
  (i, 0), the vector's entry i;  and an a×1 column spread to a×b holds, at (p, c), the column's entry (p, 0), whatever
  the column c.  Both are stated for every a and b and for entries of any type.
-/
import Idealize.ShloMosaic.Lib.ValueIdx
import Idealize.ShloMosaic.Lib.Pipeline.Value

namespace Cert.Column

open Idealize.ShloMosaic Idealize.ShloMosaic.ValueIdx

variable {α : Type}

/-- A length-a vector recast as an a×1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column spread over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.Region0.lean ====
/-
  Region 0 of the kernel program: the first layer's product X·W₁ with every row scaled by its node's factor.

  The grid has 20 points; point t works on rows 5000·t … 5000·t + 4999. Its body loads the block of feature rows
  [5000, 128], the whole matrix [128, 16] and the block of the node-factor column [5000, 1], multiplies (the product into
  a zero accumulator; the change of float format before it is the identity on extended reals), scales row p of
  the product by the factor of its node, and stores the [5000, 16] block. So what point t writes back is rows
  5000·t … of ONE whole-array function of the three arrays as the region finds them — row n of X·W times d(n) — and
  the 20 blocks tile the array: after the region the result array is that function.
-/
import proofs.«156002_j63445256896634_2_alg».proof.Proof.Gen.KernelIdeal.Frame
import proofs.«156002_j63445256896634_2_alg».proof.Proof.LibGraphLayer
import proofs.«156002_j63445256896634_2_alg».proof.Proof.LibColumn
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)
open Cert.GraphLayer Cert.RowDot

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): row p of the loaded block times the matrix, at column q, times the loaded
    factor of row p. -/
theorem pay_apply (x0 : Vec Ideal S5000x128 .f32) (x1 : Vec Ideal S128x16 .f32) (x2 : Vec Ideal S5000x1 .f32) (p : Fin 5000) (q : Fin 16) :
    k0_pay1 x0 x1 x2 (ix2 p q) = rowDot (rowOf x0 p) x1 q * x2 (ix2 p (0 : Fin 1)) := by
  unfold k0_pay1
  show (mulf (matmul dot_S5000x128_S128x16_S5000x16_1_0_0_1_n_n none (truncf .bf16 x0 bitsLt_bf16_f32) (truncf .bf16 x1 bitsLt_bf16_f32) (constant S5000x16 .f32 0x00000000#32))
      (broadcastTo S5000x16 (shapeCast S5000x1 x2 shapeCasts_S5000x1_S5000x1) broadcasts_S5000x1_S5000x16) : FVec Ideal S5000x16 .f32) (ix2 p q) = _
  rw [mulf_apply, Cert.Column.broadcastTo_a1_ab_apply, shapeCast_self]
  congr 1
  exact matmul_plain_zero_apply none (truncf .bf16 x0 bitsLt_bf16_f32) (truncf .bf16 x1 bitsLt_bf16_f32) (ix2 p q)

/-- The index maps over the grid: the row blocks move with the point, the matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at point t is rows 5000·t … of the array. -/
theorem rows_apply (c : Dev nD) (t : Fin cfg0.N) (p : Fin 5000) (j : Fin 128) (r : Fin 100000) (hr : r.val = t.val * 5000 + p.val) :
    (iblk0 V c 0 t : Vec Ideal S5000x128 .f32) (ix2 p j) = (V c main_arg0 : S100000x128.Idx → EReal) (ix2 r j) := by
  obtain ⟨e00, e01, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e00, hr]; omega
  | ⟨1, _⟩ => show win0_0.index t (1 : Fin 2) * 128 + 1 * j.val = j.val; rw [e01]; omega

/-- The matrix block at every point is the whole matrix. -/
theorem matrix_apply (c : Dev nD) (t : Fin cfg0.N) (j : Fin 128) (q : Fin 16) :
    (iblk0 V c 1 t : Vec Ideal S128x16 .f32) (ix2 j q) = (V c main_arg2 : S128x16.Idx → EReal) (ix2 j q) := by
  obtain ⟨-, -, e10, e11, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * j.val = j.val; rw [e10]; omega
  | ⟨1, _⟩ => show win0_1.index t (1 : Fin 2) * 16 + 1 * q.val = q.val; rw [e11]; omega

/-- The factor block at point t is rows 5000·t … of the factor column. -/
theorem factor_apply (c : Dev nD) (t : Fin cfg0.N) (p : Fin 5000) (r : Fin 100000) (hr : r.val = t.val * 5000 + p.val) :
    (iblk0 V c 2 t : Vec Ideal S5000x1 .f32) (ix2 p (0 : Fin 1)) = (V c main_v20 : S100000x1.Idx → EReal) (ix2 r (0 : Fin 1)) := by
  obtain ⟨-, -, -, -, e20, e21, -⟩ := idx_facts t
  unfold iblk0
  rw [View.read_apply]
  show V c main_v20 _ = V c main_v20 _
  congr 1
  funext a
  apply Fin.ext
  match a with
  | ⟨0, _⟩ => show win0_2.index t (0 : Fin 2) * 5000 + 1 * p.val = r.val; rw [e20, hr]; omega
  | ⟨1, _⟩ => show win0_2.index t (1 : Fin 2) * 1 + 1 * 0 = 0; rw [e21]

/-- What the region leaves in its result array: row n of X·W scaled by the factor of n. -/
abbrev result (c : Dev nD) : S100000x16.Idx → EReal :=
  scaledProduct (N := 100000) (K := 128) (C := 16) (V c main_arg0 : S100000x128.Idx → EReal) (V c main_arg2 : S128x16.Idx → EReal) (V c main_v20 : S100000x1.Idx → EReal)

/-- What point t writes back is block t of `result`. -/
theorem flushed_eq (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x16) hz, View.ld_unit_zero (S := S5000x1) hz]
  have hN : cfg0.N = 20 := N_0
  have ht : t.val < 20 := by have := t.isLt; omega
  obtain ⟨-, -, -, -, -, -, e30, e31⟩ := idx_facts t
  funext y
  obtain ⟨p, q, rfl⟩ : ∃ (p : Fin 5000) (q : Fin 16), y = ix2 p q := ⟨y 0, y 1, eq_ix2 y⟩
  have hp : p.val < 5000 := p.isLt
  have hemb : ((cfg0.win 3).blk t).view.emb (ix2 p q) = (ix2 (⟨t.val * 5000 + p.val, by omega⟩ : Fin 100000) q : S100000x16.Idx) := by
    funext a
    apply Fin.ext
    match a with
    | ⟨0, _⟩ => show win0_3.index t (0 : Fin 2) * 5000 + 1 * p.val = t.val * 5000 + p.val; rw [e30]; omega
    | ⟨1, _⟩ => show win0_3.index t (1 : Fin 2) * 16 + 1 * q.val = q.val; rw [e31]; omega
  show k0_pay1 (iblk0 V c 0 t) (iblk0 V c 1 t) (iblk0 V c 2 t) (ix2 p q) = result V c (((cfg0.win 3).blk t).view.emb (ix2 p q))
  unfold result
  rw [hemb, pay_apply, scaledProduct_apply, factor_apply V c t p ⟨t.val * 5000 + p.val, by omega⟩ rfl]
  congr 1
  unfold rowDot rowOf
  refine Finset.sum_congr rfl fun j _ => ?_
  rw [rows_apply V c t p j ⟨t.val * 5000 + p.val, by omega⟩ rfl, matrix_apply V c t j q]

/-- An index of the result array is in point t's block iff each coordinate is in the block's range. -/
theorem mem_blk (t : Fin cfg0.N) (i : S100000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v21).slice (win0_3.rect t)).set ↔ _
  rw [View.set_slice_whole, Rect.mem_set_unit]
  exact Iff.rfl

/-- Every index of the result array is in the block of the point its row falls to. -/
theorem cover (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 20 := N_0
  have hlt : (i 0).val / 5000 < cfg0.N := by rw [hN]; omega
  refine ⟨⟨(i 0).val / 5000, hlt⟩, flush0_3 _, ?_⟩
  rw [mem_blk]
  obtain ⟨-, -, -, -, -, -, e30, e31⟩ := idx_facts ⟨(i 0).val / 5000, hlt⟩
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, hlt⟩ (1 : Fin 2) * 16 ≤ (i 1).val ∧ (i 1).val < win0_3.index ⟨(i 0).val / 5000, hlt⟩ (1 : Fin 2) * 16 + 16
    rw [e31]
    omega

/-- After the region the result array is `result`. -/
theorem arr_out (c : Dev nD) : (dat0 V c).arrAt 3 cfg0.N = result V c :=
  (dat0 V c).arrAt_eq_of_cover 3 (result V c) (fun t _ => flushed_eq V c t) cover

end Cert.KernelIdeal.Region0

end
-- ==== Proof.Region1.lean ====
/-
  Region 1 of the kernel program: the first layer's aggregate scaled by the node factors, plus the bias, clamped below.

  The grid has 20 points; point t works on rows 5000·t … 5000·t + 4999. Its body loads the block of aggregated rows
  [5000, 16], the bias row [1, 16] and the block of the node-factor column [5000, 1], scales row p of the aggregate by the
  factor of its node, adds the bias row and takes the maximum with the constant whose word is zero, and stores the
  [5000, 16] block. So what point t writes back is rows 5000·t … of ONE whole-array function of the three arrays as the
  region finds them — max(A(n, k) · d(n) + b(k), z) — and the 20 blocks tile the array: after the region the result array
  is that function.
-/
import proofs.«156002_j63445256896634_2_alg».proof.Proof.Gen.KernelIdeal.Frame
import proofs.«156002_j63445256896634_2_alg».proof.Proof.LibGraphLayer
import proofs.«156002_j63445256896634_2_alg».proof.Proof.LibColumn
import proofs.«156002_j63445256896634_2_alg».proof.Proof.LibRowBias
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)
open Cert.GraphLayer

variable (V : (c : Dev nD) → (b : Ref sig .tc) → Buf (Elt Ideal) ((c : Thread nD τ).loc b))

theorem hz : (![0, 0] : Fin 2 → Nat) = fun _ => 0 := funext fun a => by fin_cases a <;> rfl

/-- The constant the body clamps at: the extended real whose word is zero. -/
abbrev floor : EReal := Ideal.ofBits .f32 0x00000000#32

/-- The body's stored value at (p, q): the aggregate there times the loaded factor of row p, plus the bias at q,
    clamped below. -/
theorem pay_apply (v0 : Vec Ideal S5000x16 .f32) (v2 : Vec Ideal S5000x1 .f32) (v6 : Vec Ideal S1x16 .f32) (p : Fin 5000) (q : Fin 16) :
    k1_pay1 v0 v2 v6 (ix2 p q) = max (v0 (ix2 p q) * v2 (ix2 p (0 : Fin 1)) + v6 (ix2 (0 : Fin 1) q)) floor := by
  unfold k1_pay1
  show (maximumf (addf (mulf (shapeCast S5000x16 v0 shapeCasts_S5000x16_S5000x16) (broadcastTo S5000x16 (shapeCast S5000x1 v2 shapeCasts_S5000x1_S5000x1) broadcasts_S5000x1_S5000x16))
      (broadcastTo S5000x16 (shapeCast S1x16 v6 shapeCasts_S1x16_S1x16) broadcasts_S1x16_S5000x16)) (broadcast S5000x16 (Scalar.ofBits (F := Ideal) .f32 0x00000000#32)) : FVec Ideal S5000x16 .f32) (ix2 p q) = _
  rw [maximumf_apply, addf_apply, mulf_apply, shapeCast_self, shapeCast_self, shapeCast_self,
    Cert.Column.broadcastTo_a1_ab_apply, Cert.RowBias.spreadRow_apply]
  rfl

/-- The index maps over the grid: the row blocks move with the point, the bias row stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The aggregate's block at point t is rows 5000·t … of the array. -/
theorem rows_apply (c : Dev nD) (t : Fin cfg1.N) (p : Fin 5000) (q : Fin 16) (r : Fin 100000) (hr : r.val = t.val * 5000 + p.val) :
    (iblk1 V c 0 t : Vec Ideal S5000x16 .f32) (ix2 p q) = (V c main_v36 : S100000x16.Idx → EReal) (ix2 r q) := by
  obtain ⟨e00, e01, -⟩ := idx_facts t
  unfold iblk1
  rw [View.read_apply]
  show V c main_v36 _ = V c main_v36 _
  congr 1
  funext a
  apply Fin.ext
  match a with
  | ⟨0, _⟩ => show win1_0.index t (0 : Fin 2) * 5000 + 1 * p.val = r.val; rw [e00, hr]; omega
  | ⟨1, _⟩ => show win1_0.index t (1 : Fin 2) * 16 + 1 * q.val = q.val; rw [e01]; omega

/-- The bias block at every point is the whole bias row. -/
theorem bias_apply (c : Dev nD) (t : Fin cfg1.N) (q : Fin 16) :
    (iblk1 V c 1 t : Vec Ideal S1x16 .f32) (ix2 (0 : Fin 1) q) = (V c main_v37 : S1x16.Idx → EReal) (ix2 (0 : Fin 1) q) := by
  obtain ⟨-, -, e10, e11, -⟩ := idx_facts t
  unfold iblk1
  rw [View.read_apply]
  show V c main_v37 _ = V c main_v37 _
  congr 1
  funext a
  apply Fin.ext
  match a with
  | ⟨0, _⟩ => show win1_1.index t (0 : Fin 2) * 1 + 1 * 0 = 0; rw [e10]
  | ⟨1, _⟩ => show win1_1.index t (1 : Fin 2) * 16 + 1 * q.val = q.val; rw [e11]; omega

/-- The factor block at point t is rows 5000·t … of the factor column. -/
theorem factor_apply (c : Dev nD) (t : Fin cfg1.N) (p : Fin 5000) (r : Fin 100000) (hr : r.val = t.val * 5000 + p.val) :
    (iblk1 V c 2 t : Vec Ideal S5000x1 .f32) (ix2 p (0 : Fin 1)) = (V c main_v20 : S100000x1.Idx → EReal) (ix2 r (0 : Fin 1)) := by
  obtain ⟨-, -, -, -, e20, e21, -⟩ := idx_facts t
  unfold iblk1
  rw [View.read_apply]
  show V c main_v20 _ = V c main_v20 _
  congr 1
  funext a
  apply Fin.ext
  match a with
  | ⟨0, _⟩ => show win1_2.index t (0 : Fin 2) * 5000 + 1 * p.val = r.val; rw [e20, hr]; omega
  | ⟨1, _⟩ => show win1_2.index t (1 : Fin 2) * 1 + 1 * 0 = 0; rw [e21]

/-- What the region leaves in its result array: the aggregate scaled by the node factor, plus the bias, clamped below. -/
abbrev result (c : Dev nD) : S100000x16.Idx → EReal :=
  scaledBiasClamp (N := 100000) (C := 16) floor (V c main_v36 : S100000x16.Idx → EReal) (V c main_v37 : S1x16.Idx → EReal) (V c main_v20 : S100000x1.Idx → EReal)

/-- What point t writes back is block t of `result`. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero hz]
  simp only [View.ld_unit_zero (S := S5000x16) hz, View.ld_unit_zero (S := S1x16) hz, View.ld_unit_zero (S := S5000x1) hz]
  have hN : cfg1.N = 20 := N_1
  have ht : t.val < 20 := by have := t.isLt; omega
  obtain ⟨-, -, -, -, -, -, e30, e31⟩ := idx_facts t
  funext y
  obtain ⟨p, q, rfl⟩ : ∃ (p : Fin 5000) (q : Fin 16), y = ix2 p q := ⟨y 0, y 1, eq_ix2 y⟩
  have hp : p.val < 5000 := p.isLt
  have hemb : ((cfg1.win 3).blk t).view.emb (ix2 p q) = (ix2 (⟨t.val * 5000 + p.val, by omega⟩ : Fin 100000) q : S100000x16.Idx) := by
    funext a
    apply Fin.ext
    match a with
    | ⟨0, _⟩ => show win1_3.index t (0 : Fin 2) * 5000 + 1 * p.val = t.val * 5000 + p.val; rw [e30]; omega
    | ⟨1, _⟩ => show win1_3.index t (1 : Fin 2) * 16 + 1 * q.val = q.val; rw [e31]; omega
  show k1_pay1 (iblk1 V c 0 t) (iblk1 V c 2 t) (iblk1 V c 1 t) (ix2 p q) = result V c (((cfg1.win 3).blk t).view.emb (ix2 p q))
  unfold result
  rw [hemb, pay_apply, scaledBiasClamp_apply, rows_apply V c t p q ⟨t.val * 5000 + p.val, by omega⟩ rfl,
    factor_apply V c t p ⟨t.val * 5000 + p.val, by omega⟩ rfl, bias_apply V c t q]

/-- An index of the result array is in point t's block iff each coordinate is in the block's range. -/
theorem mem_blk (t : Fin cfg1.N) (i : S100000x16.Idx) :
    i ∈ ((cfg1.win 3).blk t).view.set ↔ ∀ a : Fin 2, win1_3.index t a * S5000x16.size a ≤ (i a).val ∧ (i a).val < win1_3.index t a * S5000x16.size a + S5000x16.size a := by
  show i ∈ ((View.whole main_v38).slice (win1_3.rect t)).set ↔ _
  rw [View.set_slice_whole, Rect.mem_set_unit]
  exact Iff.rfl

/-- Every index of the result array is in the block of the point its row falls to. -/
theorem cover (i : S100000x16.Idx) : ∃ t : Fin cfg1.N, (cfg1.win 3).flush t = true ∧ i ∈ ((cfg1.win 3).blk t).view.set := by
  have hi0 : (i 0).val < 100000 := (i 0).isLt
  have hi1 : (i 1).val < 16 := (i 1).isLt
  have hN : cfg1.N = 20 := N_1
  have hlt : (i 0).val / 5000 < cfg1.N := by rw [hN]; omega
  refine ⟨⟨(i 0).val / 5000, hlt⟩, flush1_3 _, ?_⟩
  rw [mem_blk]
  obtain ⟨-, -, -, -, -, -, e30, e31⟩ := idx_facts ⟨(i 0).val / 5000, hlt⟩
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [e30]
    show (i 0).val / 5000 * 5000 ≤ (i 0).val ∧ (i 0).val < (i 0).val / 5000 * 5000 + 5000
    omega
  | ⟨1, _⟩ =>
    show win1_3.index ⟨(i 0).val / 5000, hlt⟩ (1 : Fin 2) * 16 ≤ (i 1).val ∧ (i 1).val < win1_3.index ⟨(i 0).val / 5000, hlt⟩ (1 : Fin 2) * 16 + 16
    rw [e31]
    omega

/-- After the region the result array is `result`. -/
theorem arr_out (c : Dev nD) : (dat1 V c).arrAt 3 cfg1.N = result V c :=
  (dat1 V c).arrAt_eq_of_cover 3 (result V c) (fun t _ => flushed_eq V c t) cover

end Cert.KernelIdeal.Region1

end
-- ==== Proof.Region2.lean ====
/-
  Region 2 of the kernel program: the second layer's product H·W₂ with every row scaled by its node's factor.

  The grid has 20 points; point t works on rows 5000·t … 5000·t + 4999. Its body loads the block of hidden rows
  [5000, 16], the whole matrix [16, 7] and the block of the node-factor column [5000, 1], multiplies (the product into
  a zero accumulator; the change of float format before it is the identity on extended reals), scales row p of
  the product by the factor of its node, and stores the [5000, 7] block. So what point t writes back is rows
  5000·t … of ONE whole-array function of the three arrays as the region finds them — row n of X·W times d(n) — and
  the 20 blocks tile the array: after the region the result array is that function.
-/
import proofs.«156002_j63445256896634_2_alg».proof.Proof.Gen.KernelIdeal.Frame
import proofs.«156002_j63445256896634_2_alg».proof.Proof.LibGraphLayer
import proofs.«156002_j63445256896634_2_alg».proof.Proof.LibColumn
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)
open Cert.GraphLayer Cert.RowDot

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): row p of the loaded block times the matrix, at column q, times the loaded
    factor of row p. -/
theorem pay_apply (x0 : Vec Ideal S5000x16 .f32) (x1 : Vec Ideal S16x7 .f32) (x2 : Vec Ideal S5000x1 .f32) (p : Fin 5000) (q : Fin 7) :
    k2_pay1 x0 x1 x2 (ix2 p q) = rowDot (rowOf x0 p) x1 q * x2 (ix2 p (0 : Fin 1)) := by
  unfold k2_pay1
  show (mulf (matmul dot_S5000x16_S16x7_S5000x7_1_0_0_1_n_n none (truncf .bf16 (shapeCast S5000x16 x0 shapeCasts_S5000x16_S5000x16) bitsLt_bf16_f32) (truncf .bf16 x1 bitsLt_bf16_f32) (constant S5000x7 .f32 0x00000000#32))
      (broadcastTo S5000x7 (shapeCast S5000x1 x2 shapeCasts_S5000x1_S5000x1) broadcasts_S5000x1_S5000x7) : FVec Ideal S5000x7 .f32) (ix2 p q) = _
  rw [mulf_apply, Cert.Column.broadcastTo_a1_ab_apply]
  simp only [shapeCast_self]
  congr 1
  exact matmul_plain_zero_apply none (truncf .bf16 x0 bitsLt_bf16_f32) (truncf .bf16 x1 bitsLt_bf16_f32) (ix2 p q)

/-- The index maps over the grid: the row blocks move with the point, the matrix stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The hidden block at point t is rows 5000·t … of the array. -/
theorem rows_apply (c : Dev nD) (t : Fin cfg2.N) (p : Fin 5000) (j : Fin 16) (r : Fin 100000) (hr : r.val = t.val * 5000 + p.val) :
    (iblk2 V c 0 t : Vec Ideal S5000x16 .f32) (ix2 p j) = (V c main_v38 : S100000x16.Idx → EReal) (ix2 r j) := by
  obtain ⟨e00, e01, -⟩ := idx_facts t
  unfold iblk2
  rw [View.read_apply]
  show V c main_v38 _ = V c main_v38 _
  congr 1
  funext a
  apply Fin.ext
  match a with
  | ⟨0, _⟩ => show win2_0.index t (0 : Fin 2) * 5000 + 1 * p.val = r.val; rw [e00, hr]; omega
  | ⟨1, _⟩ => show win2_0.index t (1 : Fin 2) * 16 + 1 * j.val = j.val; rw [e01]; omega

/-- The matrix block at every point is the whole matrix. -/
theorem matrix_apply (c : Dev nD) (t : Fin cfg2.N) (j : Fin 16) (q : Fin 7) :
    (iblk2 V c 1 t : Vec Ideal S16x7 .f32) (ix2 j q) = (V c main_arg4 : S16x7.Idx → EReal) (ix2 j q) := by
  obtain ⟨-, -, e10, e11, -⟩ := idx_facts t
  unfold iblk2
  rw [View.read_apply]
  show V c main_arg4 _ = V c main_arg4 _
  congr 1
  funext a
  apply Fin.ext
  match a with
  | ⟨0, _⟩ => show win2_1.index t (0 : Fin 2) * 16 + 1 * j.val = j.val; rw [e10]; omega
  | ⟨1, _⟩ => show win2_1.index t (1 : Fin 2) * 7 + 1 * q.val = q.val; rw [e11]; omega

/-- The factor block at point t is rows 5000·t … of the factor column. -/
theorem factor_apply (c : Dev nD) (t : Fin cfg2.N) (p : Fin 5000) (r : Fin 100000) (hr : r.val = t.val * 5000 + p.val) :
    (iblk2 V c 2 t : Vec Ideal S5000x1 .f32) (ix2 p (0 : Fin 1)) = (V c main_v20 : S100000x1.Idx → EReal) (ix2 r (0 : Fin 1)) := by
  obtain ⟨-, -, -, -, e20, e21, -⟩ := idx_facts t
  unfold iblk2
  rw [View.read_apply]
  show V c main_v20 _ = V c main_v20 _
  congr 1
  funext a
  apply Fin.ext
  match a with
  | ⟨0, _⟩ => show win2_2.index t (0 : Fin 2) * 5000 + 1 * p.val = r.val; rw [e20, hr]; omega
  | ⟨1, _⟩ => show win2_2.index t (1 : Fin 2) * 1 + 1 * 0 = 0; rw [e21]

/-- What the region leaves in its result array: row n of X·W scaled by the factor of n. -/
abbrev result (c : Dev nD) : S100000x7.Idx → EReal :=
  scaledProduct (N := 100000) (K := 16) (C := 7) (V c main_v38 : S100000x16.Idx → EReal) (V c main_arg4 : S16x7.Idx → EReal) (V c main_v20 : S100000x1.Idx → EReal)

/-- What point t writes back is block t of `result`. -/
theorem flushed_eq (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero hz]
  simp only [View.ld_unit_zero (S := S5000x16) hz, View.ld_unit_zero (S := S16x7) hz, View.ld_unit_zero (S := S5000x1) hz]
  have hN : cfg2.N = 20 := N_2
  have ht : t.val < 20 := by have := t.isLt; omega
  obtain ⟨-, -, -, -, -, -, e30, e31⟩ := idx_facts t
  funext y
  obtain ⟨p, q, rfl⟩ : ∃ (p : Fin 5000) (q : Fin 7), y = ix2 p q := ⟨y 0, y 1, eq_ix2 y⟩
  have hp : p.val < 5000 := p.isLt
  have hemb : ((cfg2.win 3).blk t).view.emb (ix2 p q) = (ix2 (⟨t.val * 5000 + p.val, by omega⟩ : Fin 100000) q : S100000x7.Idx) := by
    funext a
    apply Fin.ext
    match a with
    | ⟨0, _⟩ => show win2_3.index t (0 : Fin 2) * 5000 + 1 * p.val = t.val * 5000 + p.val; rw [e30]; omega
    | ⟨1, _⟩ => show win2_3.index t (1 : Fin 2) * 7 + 1 * q.val = q.val; rw [e31]; omega
  show k2_pay1 (iblk2 V c 0 t) (iblk2 V c 1 t) (iblk2 V c 2 t) (ix2 p q) = result V c (((cfg2.win 3).blk t).view.emb (ix2 p q))
  unfold result
  rw [hemb, pay_apply, scaledProduct_apply, factor_apply V c t p ⟨t.val * 5000 + p.val, by omega⟩ rfl]
  congr 1
  unfold rowDot rowOf
  refine Finset.sum_congr rfl fun j _ => ?_
  rw [rows_apply V c t p j ⟨t.val * 5000 + p.val, by omega⟩ rfl, matrix_apply V c t j q]

/-- An index of the result array is in point t's block iff each coordinate is in the block's range. -/
theorem mem_blk (t : Fin cfg2.N) (i : S100000x7.Idx) :
    i ∈ ((cfg2.win 3).blk t).view.set ↔ ∀ a : Fin 2, win2_3.index t a * S5000x7.size a ≤ (i a).val ∧ (i a).val < win2_3.index t a * S5000x7.size a + S5000x7.size a := by
  show i ∈ ((View.whole main_v39).slice (win2_3.rect t)).set ↔ _
  rw [View.set_slice_whole, Rect.mem_set_unit]
  exact Iff.rfl

/-- Every index of the result array is in the block of the point its row falls to. -/
theorem cover (i : S100000x7.Idx) : ∃ t : Fin cfg2.N, (cfg2.win 3).flush t = true ∧ i ∈ ((cfg2.win 3).blk t).view.set := by
  have hi0 : (i 0).val < 100000 := (i 0).isLt
  have hi1 : (i 1).val < 7 := (i 1).isLt
  have hN : cfg2.N = 20 := N_2
  have hlt : (i 0).val / 5000 < cfg2.N := by rw [hN]; omega
  refine ⟨⟨(i 0).val / 5000, hlt⟩, flush2_3 _, ?_⟩
  rw [mem_blk]
  obtain ⟨-, -, -, -, -, -, e30, e31⟩ := idx_facts ⟨(i 0).val / 5000, hlt⟩
  intro a
  match a with
  | ⟨0, _⟩ =>
    show win2_3.index ⟨(i 0).val / 5000, hlt⟩ (0 : Fin 2) * 5000 ≤ (i 0).val ∧ (i 0).val < win2_3.index ⟨(i 0).val / 5000, hlt⟩ (0 : Fin 2) * 5000 + 5000
    rw [e30]
    show (i 0).val / 5000 * 5000 ≤ (i 0).val ∧ (i 0).val < (i 0).val / 5000 * 5000 + 5000
    omega
  | ⟨1, _⟩ =>
    show win2_3.index ⟨(i 0).val / 5000, hlt⟩ (1 : Fin 2) * 7 ≤ (i 1).val ∧ (i 1).val < win2_3.index ⟨(i 0).val / 5000, hlt⟩ (1 : Fin 2) * 7 + 7
    rw [e31]
    omega

/-- After the region the result array is `result`. -/
theorem arr_out (c : Dev nD) : (dat2 V c).arrAt 3 cfg2.N = result V c :=
  (dat2 V c).arrAt_eq_of_cover 3 (result V c) (fun t _ => flushed_eq V c t) cover

end Cert.KernelIdeal.Region2

end
-- ==== Proof.Region3.lean ====
/-
  Region 3 of the kernel program: the second layer's aggregate scaled by the node factors, plus the bias, clamped below.

  The grid has 20 points; point t works on rows 5000·t … 5000·t + 4999. Its body loads the block of aggregated rows
  [5000, 7], the bias row [1, 7] and the block of the node-factor column [5000, 1], scales row p of the aggregate by the
  factor of its node, adds the bias row and takes the maximum with the constant whose word is zero, and stores the
  [5000, 7] block. So what point t writes back is rows 5000·t … of ONE whole-array function of the three arrays as the
  region finds them — max(A(n, k) · d(n) + b(k), z) — and the 20 blocks tile the array: after the region the result array
  is that function.
-/
import proofs.«156002_j63445256896634_2_alg».proof.Proof.Gen.KernelIdeal.Frame
import proofs.«156002_j63445256896634_2_alg».proof.Proof.LibGraphLayer
import proofs.«156002_j63445256896634_2_alg».proof.Proof.LibColumn
import proofs.«156002_j63445256896634_2_alg».proof.Proof.LibRowBias
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat)
open Cert.GraphLayer

variable (V : (c : Dev nD) → (b : Ref sig .tc) → Buf (Elt Ideal) ((c : Thread nD τ).loc b))

theorem hz : (![0, 0] : Fin 2 → Nat) = fun _ => 0 := funext fun a => by fin_cases a <;> rfl

/-- The constant the body clamps at: the extended real whose word is zero. -/
abbrev floor : EReal := Ideal.ofBits .f32 0x00000000#32

/-- The body's stored value at (p, q): the aggregate there times the loaded factor of row p, plus the bias at q,
    clamped below. -/
theorem pay_apply (v0 : Vec Ideal S5000x7 .f32) (v2 : Vec Ideal S5000x1 .f32) (v6 : Vec Ideal S1x7 .f32) (p : Fin 5000) (q : Fin 7) :
    k3_pay1 v0 v2 v6 (ix2 p q) = max (v0 (ix2 p q) * v2 (ix2 p (0 : Fin 1)) + v6 (ix2 (0 : Fin 1) q)) floor := by
  unfold k3_pay1
  show (maximumf (addf (mulf (shapeCast S5000x7 v0 shapeCasts_S5000x7_S5000x7) (broadcastTo S5000x7 (shapeCast S5000x1 v2 shapeCasts_S5000x1_S5000x1) broadcasts_S5000x1_S5000x7))
      (broadcastTo S5000x7 (shapeCast S1x7 v6 shapeCasts_S1x7_S1x7) broadcasts_S1x7_S5000x7)) (broadcast S5000x7 (Scalar.ofBits (F := Ideal) .f32 0x00000000#32)) : FVec Ideal S5000x7 .f32) (ix2 p q) = _
  rw [maximumf_apply, addf_apply, mulf_apply, shapeCast_self, shapeCast_self, shapeCast_self,
    Cert.Column.broadcastTo_a1_ab_apply, Cert.RowBias.spreadRow_apply]
  rfl

/-- The index maps over the grid: the row blocks move with the point, the bias row stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The aggregate's block at point t is rows 5000·t … of the array. -/
theorem rows_apply (c : Dev nD) (t : Fin cfg3.N) (p : Fin 5000) (q : Fin 7) (r : Fin 100000) (hr : r.val = t.val * 5000 + p.val) :
    (iblk3 V c 0 t : Vec Ideal S5000x7 .f32) (ix2 p q) = (V c main_v54 : S100000x7.Idx → EReal) (ix2 r q) := by
  obtain ⟨e00, e01, -⟩ := idx_facts t
  unfold iblk3
  rw [View.read_apply]
  show V c main_v54 _ = V c main_v54 _
  congr 1
  funext a
  apply Fin.ext
  match a with
  | ⟨0, _⟩ => show win3_0.index t (0 : Fin 2) * 5000 + 1 * p.val = r.val; rw [e00, hr]; omega
  | ⟨1, _⟩ => show win3_0.index t (1 : Fin 2) * 7 + 1 * q.val = q.val; rw [e01]; omega

/-- The bias block at every point is the whole bias row. -/
theorem bias_apply (c : Dev nD) (t : Fin cfg3.N) (q : Fin 7) :
    (iblk3 V c 1 t : Vec Ideal S1x7 .f32) (ix2 (0 : Fin 1) q) = (V c main_v55 : S1x7.Idx → EReal) (ix2 (0 : Fin 1) q) := by
  obtain ⟨-, -, e10, e11, -⟩ := idx_facts t
  unfold iblk3
  rw [View.read_apply]
  show V c main_v55 _ = V c main_v55 _
  congr 1
  funext a
  apply Fin.ext
  match a with
  | ⟨0, _⟩ => show win3_1.index t (0 : Fin 2) * 1 + 1 * 0 = 0; rw [e10]
  | ⟨1, _⟩ => show win3_1.index t (1 : Fin 2) * 7 + 1 * q.val = q.val; rw [e11]; omega

/-- The factor block at point t is rows 5000·t … of the factor column. -/
theorem factor_apply (c : Dev nD) (t : Fin cfg3.N) (p : Fin 5000) (r : Fin 100000) (hr : r.val = t.val * 5000 + p.val) :
    (iblk3 V c 2 t : Vec Ideal S5000x1 .f32) (ix2 p (0 : Fin 1)) = (V c main_v20 : S100000x1.Idx → EReal) (ix2 r (0 : Fin 1)) := by
  obtain ⟨-, -, -, -, e20, e21, -⟩ := idx_facts t
  unfold iblk3
  rw [View.read_apply]
  show V c main_v20 _ = V c main_v20 _
  congr 1
  funext a
  apply Fin.ext
  match a with
  | ⟨0, _⟩ => show win3_2.index t (0 : Fin 2) * 5000 + 1 * p.val = r.val; rw [e20, hr]; omega
  | ⟨1, _⟩ => show win3_2.index t (1 : Fin 2) * 1 + 1 * 0 = 0; rw [e21]

/-- What the region leaves in its result array: the aggregate scaled by the node factor, plus the bias, clamped below. -/
abbrev result (c : Dev nD) : S100000x7.Idx → EReal :=
  scaledBiasClamp (N := 100000) (C := 7) floor (V c main_v54 : S100000x7.Idx → EReal) (V c main_v55 : S1x7.Idx → EReal) (V c main_v20 : S100000x1.Idx → EReal)

/-- What point t writes back is block t of `result`. -/
theorem flushed_eq (c : Dev nD) (t : Fin cfg3.N) :
    (dat3 V c).flushed 3 t = ((cfg3.win 3).blk t).view.read (Elt Ideal) (result V c) := by
  show (cfg3.win 3).cut (grid3.coords t) ((dat3 V c).after 3 t) = _
  rw [after3_3]
  unfold out3_3
  rw [View.canon_unit_zero hz]
  simp only [View.ld_unit_zero (S := S5000x7) hz, View.ld_unit_zero (S := S1x7) hz, View.ld_unit_zero (S := S5000x1) hz]
  have hN : cfg3.N = 20 := N_3
  have ht : t.val < 20 := by have := t.isLt; omega
  obtain ⟨-, -, -, -, -, -, e30, e31⟩ := idx_facts t
  funext y
  obtain ⟨p, q, rfl⟩ : ∃ (p : Fin 5000) (q : Fin 7), y = ix2 p q := ⟨y 0, y 1, eq_ix2 y⟩
  have hp : p.val < 5000 := p.isLt
  have hemb : ((cfg3.win 3).blk t).view.emb (ix2 p q) = (ix2 (⟨t.val * 5000 + p.val, by omega⟩ : Fin 100000) q : S100000x7.Idx) := by
    funext a
    apply Fin.ext
    match a with
    | ⟨0, _⟩ => show win3_3.index t (0 : Fin 2) * 5000 + 1 * p.val = t.val * 5000 + p.val; rw [e30]; omega
    | ⟨1, _⟩ => show win3_3.index t (1 : Fin 2) * 7 + 1 * q.val = q.val; rw [e31]; omega
  show k3_pay1 (iblk3 V c 0 t) (iblk3 V c 2 t) (iblk3 V c 1 t) (ix2 p q) = result V c (((cfg3.win 3).blk t).view.emb (ix2 p q))
  unfold result
  rw [hemb, pay_apply, scaledBiasClamp_apply, rows_apply V c t p q ⟨t.val * 5000 + p.val, by omega⟩ rfl,
    factor_apply V c t p ⟨t.val * 5000 + p.val, by omega⟩ rfl, bias_apply V c t q]

/-- An index of the result array is in point t's block iff each coordinate is in the block's range. -/
theorem mem_blk (t : Fin cfg3.N) (i : S100000x7.Idx) :
    i ∈ ((cfg3.win 3).blk t).view.set ↔ ∀ a : Fin 2, win3_3.index t a * S5000x7.size a ≤ (i a).val ∧ (i a).val < win3_3.index t a * S5000x7.size a + S5000x7.size a := by
  show i ∈ ((View.whole main_v56).slice (win3_3.rect t)).set ↔ _
  rw [View.set_slice_whole, Rect.mem_set_unit]
  exact Iff.rfl

/-- Every index of the result array is in the block of the point its row falls to. -/
theorem cover (i : S100000x7.Idx) : ∃ t : Fin cfg3.N, (cfg3.win 3).flush t = true ∧ i ∈ ((cfg3.win 3).blk t).view.set := by
  have hi0 : (i 0).val < 100000 := (i 0).isLt
  have hi1 : (i 1).val < 7 := (i 1).isLt
  have hN : cfg3.N = 20 := N_3
  have hlt : (i 0).val / 5000 < cfg3.N := by rw [hN]; omega
  refine ⟨⟨(i 0).val / 5000, hlt⟩, flush3_3 _, ?_⟩
  rw [mem_blk]
  obtain ⟨-, -, -, -, -, -, e30, e31⟩ := idx_facts ⟨(i 0).val / 5000, hlt⟩
  intro a
  match a with
  | ⟨0, _⟩ =>
    show win3_3.index ⟨(i 0).val / 5000, hlt⟩ (0 : Fin 2) * 5000 ≤ (i 0).val ∧ (i 0).val < win3_3.index ⟨(i 0).val / 5000, hlt⟩ (0 : Fin 2) * 5000 + 5000
    rw [e30]
    show (i 0).val / 5000 * 5000 ≤ (i 0).val ∧ (i 0).val < (i 0).val / 5000 * 5000 + 5000
    omega
  | ⟨1, _⟩ =>
    show win3_3.index ⟨(i 0).val / 5000, hlt⟩ (1 : Fin 2) * 7 ≤ (i 1).val ∧ (i 1).val < win3_3.index ⟨(i 0).val / 5000, hlt⟩ (1 : Fin 2) * 7 + 7
    rw [e31]
    omega

/-- After the region the result array is `result`. -/
theorem arr_out (c : Dev nD) : (dat3 V c).arrAt 3 cfg3.N = result V c :=
  (dat3 V c).arrAt_eq_of_cover 3 (result V c) (fun t _ => flushed_eq V c t) cover

end Cert.KernelIdeal.Region3

end
-- ==== Proof.KernelFold.lean ====
/-
  The idealized kernel program's result as one function of its arguments.

  The boundary contents of the program (the fold through its nine segments) are read back, buffer by buffer, to the
  launch memory. The host operations before the first region compute, from the edge words alone: the source and the
  destination words (each edge's word followed by every node's own number: the self loops), each wrapped by the number
  of nodes where negative and laid out as a column; the degree of every node (ones accumulated at the destination
  words) and its inverse square root guarded at zero, the node factor, as a column. None of these buffers, and none of
  the arguments, is written again. Region 0 leaves X·W₁ with rows scaled by the node factors; the host gathers its
  rows at the source words and accumulates them at the destination words; region 1 scales the aggregate's rows by the
  node factors, adds the bias and clamps; regions 2 and 3 and the host operations between them do the same with W₂ and
  the second bias. So the result array is two factored layers in a row.
-/
import proofs.«156002_j63445256896634_2_alg».proof.Proof.Gen.KernelIdeal.Frame
import proofs.«156002_j63445256896634_2_alg».proof.Proof.LibGraphLayer
import proofs.«156002_j63445256896634_2_alg».proof.Proof.Region0
import proofs.«156002_j63445256896634_2_alg».proof.Proof.Region1
import proofs.«156002_j63445256896634_2_alg».proof.Proof.Region2
import proofs.«156002_j63445256896634_2_alg».proof.Proof.Region3
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo Idealize.ShloMosaic.ValueIdx
open Cert.GraphLayer

/-! ## The values the host operations compute from the edge words -/

/-- The edges' words followed by the nodes' words, as one vector of words. -/
def joinWords (a : IVec S3200000 32) (b : IVec S100000 32) : IVec S3300000 32 :=
  concatenate S3300000 0 [⟨S3200000, a⟩, ⟨S100000, b⟩] concatenates_S3200000_S100000_S3300000_d0

theorem join_def (a : IVec S3200000 32) (b : IVec S100000 32) :
    concatenate S3300000 0 [⟨S3200000, a⟩, ⟨S100000, b⟩] concatenates_S3200000_S100000_S3300000_d0 = joinWords a b := rfl

/-- Reads a buffer through a literal line of host operations: each operation's result at its own buffer is its
    function of its operands' contents, every other buffer keeps what it held; a joined vector is named so that
    its two parts are read in turn. -/
macro "read_fold" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', join_def]))

/-- The source words: every edge's, then every node's own number. -/
def srcVec (a1 : IVec S2x3200000 32) : IVec S3300000 32 :=
  joinWords (shapeCast S3200000 (extractStridedSlice S1x3200000 ![0, 0] a1 slices_S2x3200000_S1x3200000_0_0) shapeCasts_S1x3200000_S3200000) (iotaInDim S100000 32 0)

/-- The destination words: every edge's, then every node's own number. -/
def dstVec (a1 : IVec S2x3200000 32) : IVec S3300000 32 :=
  joinWords (shapeCast S3200000 (extractStridedSlice S1x3200000 ![1, 0] a1 slices_S2x3200000_S1x3200000_1_0) shapeCasts_S1x3200000_S3200000) (iotaInDim S100000 32 0)

/-- Words wrapped by the number of nodes where negative, as a column of start indices. -/
def wrapCol (v : IVec S3300000 32) : IVec S3300000x1 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- The degrees: ones accumulated, from zero, at the destination column. -/
def degVec (col : IVec S3300000x1 32) : FVec Ideal S100000 .f32 :=
  Host.scatterAdd scatter_S100000_S3300000x1_S3300000_n_0_0_1 (broadcastInDim S100000 ![] bcast_S_S100000 (constant S_ .f32 0x00000000#32)) col
    (broadcastInDim S3300000 ![] bcast_S_S3300000 (constant S_ .f32 0x3F800000#32))

/-- The node factors: the inverse square root of the degree where it is positive, zero elsewhere. -/
def dinvVec (col : IVec S3300000x1 32) : FVec Ideal S100000 .f32 :=
  select (cmpf .ogt (degVec col) (broadcastInDim S100000 ![] bcast_S_S100000 (constant S_ .f32 0x00000000#32))) (Host.rsqrt (degVec col))
    (broadcastInDim S100000 ![] bcast_S_S100000 (id (constant S_ .f32 0x00000000#32)))

/-- The node factors as a column. -/
def dinvCol (col : IVec S3300000x1 32) : FVec Ideal S100000x1 .f32 :=
  shapeCast S100000x1 (dinvVec col) shapeCasts_S100000_S100000x1

/-- The zero tables the aggregates accumulate from. -/
def zeros16 : FVec Ideal S100000x16 .f32 := broadcastInDim S100000x16 ![] bcast_S_S100000x16 (constant S_ .f32 0x00000000#32)
def zeros7 : FVec Ideal S100000x7 .f32 := broadcastInDim S100000x7 ![] bcast_S_S100000x7 (constant S_ .f32 0x00000000#32)

/-- The first layer, factored: rows of X·W₁ scaled, gathered at the sources, accumulated at the destinations, the
    aggregate scaled, plus the bias, clamped below. -/
def hidden (x : FVec Ideal S100000x128 .f32) (a1 : IVec S2x3200000 32) (w1 : FVec Ideal S128x16 .f32) (b1 : FVec Ideal S16 .f32) : FVec Ideal S100000x16 .f32 :=
  scaledBiasClamp (N := 100000) (C := 16) Region1.floor
    (Host.scatterAdd scatter_S100000x16_S3300000x1_S3300000x16_1_0_0_1 zeros16 (wrapCol (dstVec a1))
      (Host.gather gather_S100000x16_S3300000x1_S3300000x16_1_0_n_n_0_1_116 (scaledProduct (N := 100000) (K := 128) (C := 16) x w1 (dinvCol (wrapCol (dstVec a1)))) (wrapCol (srcVec a1))))
    (shapeCast S1x16 b1 shapeCasts_S16_S1x16) (dinvCol (wrapCol (dstVec a1)))

/-- The whole kernel program's value: the second factored layer on the first's result. -/
def kernelNet (x : FVec Ideal S100000x128 .f32) (a1 : IVec S2x3200000 32) (w1 : FVec Ideal S128x16 .f32) (b1 : FVec Ideal S16 .f32)
    (w2 : FVec Ideal S16x7 .f32) (b2 : FVec Ideal S7 .f32) : FVec Ideal S100000x7 .f32 :=
  scaledBiasClamp (N := 100000) (C := 7) Region3.floor
    (Host.scatterAdd scatter_S100000x7_S3300000x1_S3300000x7_1_0_0_1 zeros7 (wrapCol (dstVec a1))
      (Host.gather gather_S100000x7_S3300000x1_S3300000x7_1_0_n_n_0_1_17 (scaledProduct (N := 100000) (K := 16) (C := 7) (hidden x a1 w1 b1) w2 (dinvCol (wrapCol (dstVec a1)))) (wrapCol (srcVec a1))))
    (shapeCast S1x7 b2 shapeCasts_S7_S1x7) (dinvCol (wrapCol (dstVec a1)))

/-! ## The fold, read back -/

variable (m : (ℓ : Loc nD τ sig) → Buf (Elt Ideal) ℓ) (ρ : Dev nD → PrngReg) (c : Dev nD)

/-- What a boundary's contents carry unchanged from the first stretch of host operations: the source and destination
    words, the node-factor column, and the arguments read later. -/
structure Carried (W : Valuation τ sig (Elt Ideal)) : Prop where
  src : (W (Proc.devRef .tc main_v3) : S3300000.Idx → BitVec 32) = srcVec (m ((c.tc : Thread nD τ).loc main_arg1))
  dst : (W (Proc.devRef .tc main_v6) : S3300000.Idx → BitVec 32) = dstVec (m ((c.tc : Thread nD τ).loc main_arg1))
  fac : (W (Proc.devRef .tc main_v20) : S100000x1.Idx → EReal) = dinvCol (wrapCol (dstVec (m ((c.tc : Thread nD τ).loc main_arg1))))
  b1 : (W (Proc.devRef .tc main_arg3) : S16.Idx → EReal) = (m ((c.tc : Thread nD τ).loc main_arg3))
  w2 : (W (Proc.devRef .tc main_arg4) : S16x7.Idx → EReal) = (m ((c.tc : Thread nD τ).loc main_arg4))
  b2 : (W (Proc.devRef .tc main_arg5) : S7.Idx → EReal) = (m ((c.tc : Thread nD τ).loc main_arg5))

/-- The three operations of the guarded selection, over any contents: the result is the selection of the two
    operands, the guard's value spread over the nodes. -/
theorem guarded_of (V : Valuation τ sig (Elt Ideal)) :
    (after hostOps0_1 V (Proc.devRef .tc main_v19) : S100000.Idx → EReal)
      = select (V (Proc.devRef .tc main_v17) : S100000.Idx → BitVec 1) (V (Proc.devRef .tc main_v18) : S100000.Idx → EReal)
          (broadcastInDim S100000 ![] bcast_S_S100000 (id (V (Proc.devRef .tc main_cst_3) : S_.Idx → EReal))) := by
  dsimp only [hostOps0_1]; read_fold <;> rfl

/-- The recast of the node factors as a column, over any contents. -/
theorem column_of (V : Valuation τ sig (Elt Ideal)) :
    (after hostOps0_2 V (Proc.devRef .tc main_v20) : S100000x1.Idx → EReal)
      = shapeCast S100000x1 (V (Proc.devRef .tc main_v19) : S100000.Idx → EReal) shapeCasts_S100000_S100000x1 := by
  dsimp only [hostOps0_2]; read_fold <;> rfl

theorem positive1 : (W1 m ρ c (Proc.devRef .tc main_v17) : S100000.Idx → BitVec 1)
    = cmpf .ogt (degVec (wrapCol (dstVec (m ((c.tc : Thread nD τ).loc main_arg1))))) (broadcastInDim S100000 ![] bcast_S_S100000 (constant S_ .f32 0x00000000#32)) := by
  dsimp only [W1, W0, hostOps0]; read_fold <;> rfl
theorem rsqrt1 : (W1 m ρ c (Proc.devRef .tc main_v18) : S100000.Idx → EReal) = Host.rsqrt (degVec (wrapCol (dstVec (m ((c.tc : Thread nD τ).loc main_arg1))))) := by
  dsimp only [W1, W0, hostOps0]; read_fold <;> rfl
theorem guardValue1 : (W1 m ρ c (Proc.devRef .tc main_cst_3) : S_.Idx → EReal) = (constant (F := Ideal) S_ .f32 0x00000000#32 : S_.Idx → EReal) := by
  dsimp only [W1, W0, hostOps0]; read_fold <;> rfl

/-- The node factors after the guarded selection. -/
theorem factors2 : (W2 m ρ c (Proc.devRef .tc main_v19) : S100000.Idx → EReal) = dinvVec (wrapCol (dstVec (m ((c.tc : Thread nD τ).loc main_arg1)))) :=
  (guarded_of (W1 m ρ c)).trans (by rw [positive1 m ρ c, rsqrt1 m ρ c, guardValue1 m ρ c]; rfl)

/-- The node-factor column at the first region's entry. -/
theorem factorColumn3 : (W3 m ρ c (Proc.devRef .tc main_v20) : S100000x1.Idx → EReal) = dinvCol (wrapCol (dstVec (m ((c.tc : Thread nD τ).loc main_arg1)))) :=
  (column_of (W2 m ρ c)).trans (by rw [factors2 m ρ c]; rfl)

/-- At the first region's entry. -/
theorem carried3 : Carried m c (W3 m ρ c) where
  src := by dsimp only [W3, W2, W1, W0, hostOps0, hostOps0_1, hostOps0_2]; read_fold <;> rfl
  dst := by dsimp only [W3, W2, W1, W0, hostOps0, hostOps0_1, hostOps0_2]; read_fold <;> rfl
  fac := factorColumn3 m ρ c
  b1 := by dsimp only [W3, W2, W1, W0, hostOps0, hostOps0_1, hostOps0_2]; read_fold <;> rfl
  w2 := by dsimp only [W3, W2, W1, W0, hostOps0, hostOps0_1, hostOps0_2]; read_fold <;> rfl
  b2 := by dsimp only [W3, W2, W1, W0, hostOps0, hostOps0_1, hostOps0_2]; read_fold <;> rfl

theorem features3 : (W3 m ρ c (Proc.devRef .tc main_arg0) : S100000x128.Idx → EReal) = (m ((c.tc : Thread nD τ).loc main_arg0)) := by
  dsimp only [W3, W2, W1, W0, hostOps0, hostOps0_1, hostOps0_2]; read_fold <;> rfl
theorem weights3 : (W3 m ρ c (Proc.devRef .tc main_arg2) : S128x16.Idx → EReal) = (m ((c.tc : Thread nD τ).loc main_arg2)) := by
  dsimp only [W3, W2, W1, W0, hostOps0, hostOps0_1, hostOps0_2]; read_fold <;> rfl

/-- Region 0 leaves the scaled product. -/
theorem product4 : (W4 m ρ c (Proc.devRef .tc main_v21) : S100000x16.Idx → EReal)
    = scaledProduct (N := 100000) (K := 128) (C := 16) (m ((c.tc : Thread nD τ).loc main_arg0)) (m ((c.tc : Thread nD τ).loc main_arg2)) (dinvCol (wrapCol (dstVec (m ((c.tc : Thread nD τ).loc main_arg1))))) := by
  refine (W4_arr m ρ c 3).trans ((Region0.arr_out (V3 m ρ) c).trans ?_)
  unfold Region0.result
  show scaledProduct (N := 100000) (K := 128) (C := 16) (W3 m ρ c (Proc.devRef .tc main_arg0) : S100000x128.Idx → EReal) (W3 m ρ c (Proc.devRef .tc main_arg2) : S128x16.Idx → EReal) (W3 m ρ c (Proc.devRef .tc main_v20) : S100000x1.Idx → EReal) = _
  rw [features3 m ρ c, weights3 m ρ c, (carried3 m ρ c).fac]

theorem carried4 : Carried m c (W4 m ρ c) where
  src := (W4_of_ne m ρ c main_v3 (by decide)).trans (carried3 m ρ c).src
  dst := (W4_of_ne m ρ c main_v6 (by decide)).trans (carried3 m ρ c).dst
  fac := (W4_arr m ρ c 2).trans ((((dat0 (V3 m ρ) c).arrAt_in 2 rfl _).trans (A_eq0 (V3 m ρ) c 2)).trans (carried3 m ρ c).fac)
  b1 := (W4_of_ne m ρ c main_arg3 (by decide)).trans (carried3 m ρ c).b1
  w2 := (W4_of_ne m ρ c main_arg4 (by decide)).trans (carried3 m ρ c).w2
  b2 := (W4_of_ne m ρ c main_arg5 (by decide)).trans (carried3 m ρ c).b2

theorem carried5 : Carried m c (W5 m ρ c) where
  src := (show (W5 m ρ c (Proc.devRef .tc main_v3) : S3300000.Idx → BitVec 32) = W4 m ρ c (Proc.devRef .tc main_v3) from by
    dsimp only [W5, hostOps1]; read_fold).trans (carried4 m ρ c).src
  dst := (show (W5 m ρ c (Proc.devRef .tc main_v6) : S3300000.Idx → BitVec 32) = W4 m ρ c (Proc.devRef .tc main_v6) from by
    dsimp only [W5, hostOps1]; read_fold).trans (carried4 m ρ c).dst
  fac := (show (W5 m ρ c (Proc.devRef .tc main_v20) : S100000x1.Idx → EReal) = W4 m ρ c (Proc.devRef .tc main_v20) from by
    dsimp only [W5, hostOps1]; read_fold).trans (carried4 m ρ c).fac
  b1 := (show (W5 m ρ c (Proc.devRef .tc main_arg3) : S16.Idx → EReal) = W4 m ρ c (Proc.devRef .tc main_arg3) from by
    dsimp only [W5, hostOps1]; read_fold).trans (carried4 m ρ c).b1
  w2 := (show (W5 m ρ c (Proc.devRef .tc main_arg4) : S16x7.Idx → EReal) = W4 m ρ c (Proc.devRef .tc main_arg4) from by
    dsimp only [W5, hostOps1]; read_fold).trans (carried4 m ρ c).w2
  b2 := (show (W5 m ρ c (Proc.devRef .tc main_arg5) : S7.Idx → EReal) = W4 m ρ c (Proc.devRef .tc main_arg5) from by
    dsimp only [W5, hostOps1]; read_fold).trans (carried4 m ρ c).b2

/-- The first aggregate: the scaled product's rows gathered at the sources, accumulated at the destinations. -/
theorem aggregate5 : (W5 m ρ c (Proc.devRef .tc main_v36) : S100000x16.Idx → EReal)
    = Host.scatterAdd scatter_S100000x16_S3300000x1_S3300000x16_1_0_0_1 zeros16 (wrapCol (dstVec (m ((c.tc : Thread nD τ).loc main_arg1))))
        (Host.gather gather_S100000x16_S3300000x1_S3300000x16_1_0_n_n_0_1_116 (scaledProduct (N := 100000) (K := 128) (C := 16) (m ((c.tc : Thread nD τ).loc main_arg0)) (m ((c.tc : Thread nD τ).loc main_arg2)) (dinvCol (wrapCol (dstVec (m ((c.tc : Thread nD τ).loc main_arg1)))))) (wrapCol (srcVec (m ((c.tc : Thread nD τ).loc main_arg1))))) := by
  rw [← product4 m ρ c, ← (carried4 m ρ c).src, ← (carried4 m ρ c).dst]
  dsimp only [W5, hostOps1]; read_fold <;> rfl

theorem biasRow5 : (W5 m ρ c (Proc.devRef .tc main_v37) : S1x16.Idx → EReal) = shapeCast S1x16 (m ((c.tc : Thread nD τ).loc main_arg3)) shapeCasts_S16_S1x16 := by
  rw [← (carried4 m ρ c).b1]
  dsimp only [W5, hostOps1]; read_fold <;> rfl

/-- Region 1 leaves the first layer's result. -/
theorem hidden6 : (W6 m ρ c (Proc.devRef .tc main_v38) : S100000x16.Idx → EReal) = hidden (m ((c.tc : Thread nD τ).loc main_arg0)) (m ((c.tc : Thread nD τ).loc main_arg1)) (m ((c.tc : Thread nD τ).loc main_arg2)) (m ((c.tc : Thread nD τ).loc main_arg3)) := by
  refine (W6_arr m ρ c 3).trans ((Region1.arr_out (V5 m ρ) c).trans ?_)
  unfold Region1.result hidden
  show scaledBiasClamp (N := 100000) (C := 16) Region1.floor (W5 m ρ c (Proc.devRef .tc main_v36) : S100000x16.Idx → EReal) (W5 m ρ c (Proc.devRef .tc main_v37) : S1x16.Idx → EReal) (W5 m ρ c (Proc.devRef .tc main_v20) : S100000x1.Idx → EReal) = _
  rw [aggregate5 m ρ c, biasRow5 m ρ c, (carried5 m ρ c).fac]

theorem carried6 : Carried m c (W6 m ρ c) where
  src := (W6_of_ne m ρ c main_v3 (by decide)).trans (carried5 m ρ c).src
  dst := (W6_of_ne m ρ c main_v6 (by decide)).trans (carried5 m ρ c).dst
  fac := (W6_arr m ρ c 2).trans ((((dat1 (V5 m ρ) c).arrAt_in 2 rfl _).trans (A_eq1 (V5 m ρ) c 2)).trans (carried5 m ρ c).fac)
  b1 := (W6_of_ne m ρ c main_arg3 (by decide)).trans (carried5 m ρ c).b1
  w2 := (W6_of_ne m ρ c main_arg4 (by decide)).trans (carried5 m ρ c).w2
  b2 := (W6_of_ne m ρ c main_arg5 (by decide)).trans (carried5 m ρ c).b2

/-- Region 2 leaves the second scaled product. -/
theorem product7 : (W7 m ρ c (Proc.devRef .tc main_v39) : S100000x7.Idx → EReal)
    = scaledProduct (N := 100000) (K := 16) (C := 7) (hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (dinvCol (wrapCol (dstVec (m ((c.tc : Thread nD τ).loc main_arg1))))) := by
  refine (W7_arr m ρ c 3).trans ((Region2.arr_out (V6 m ρ) c).trans ?_)
  unfold Region2.result
  show scaledProduct (N := 100000) (K := 16) (C := 7) (W6 m ρ c (Proc.devRef .tc main_v38) : S100000x16.Idx → EReal) (W6 m ρ c (Proc.devRef .tc main_arg4) : S16x7.Idx → EReal) (W6 m ρ c (Proc.devRef .tc main_v20) : S100000x1.Idx → EReal) = _
  rw [hidden6 m ρ c, (carried6 m ρ c).w2, (carried6 m ρ c).fac]

theorem carried7 : Carried m c (W7 m ρ c) where
  src := (W7_of_ne m ρ c main_v3 (by decide)).trans (carried6 m ρ c).src
  dst := (W7_of_ne m ρ c main_v6 (by decide)).trans (carried6 m ρ c).dst
  fac := (W7_arr m ρ c 2).trans ((((dat2 (V6 m ρ) c).arrAt_in 2 rfl _).trans (A_eq2 (V6 m ρ) c 2)).trans (carried6 m ρ c).fac)
  b1 := (W7_of_ne m ρ c main_arg3 (by decide)).trans (carried6 m ρ c).b1
  w2 := (W7_arr m ρ c 1).trans ((((dat2 (V6 m ρ) c).arrAt_in 1 rfl _).trans (A_eq2 (V6 m ρ) c 1)).trans (carried6 m ρ c).w2)
  b2 := (W7_of_ne m ρ c main_arg5 (by decide)).trans (carried6 m ρ c).b2

theorem carried8 : Carried m c (W8 m ρ c) where
  src := (show (W8 m ρ c (Proc.devRef .tc main_v3) : S3300000.Idx → BitVec 32) = W7 m ρ c (Proc.devRef .tc main_v3) from by
    dsimp only [W8, hostOps3]; read_fold).trans (carried7 m ρ c).src
  dst := (show (W8 m ρ c (Proc.devRef .tc main_v6) : S3300000.Idx → BitVec 32) = W7 m ρ c (Proc.devRef .tc main_v6) from by
    dsimp only [W8, hostOps3]; read_fold).trans (carried7 m ρ c).dst
  fac := (show (W8 m ρ c (Proc.devRef .tc main_v20) : S100000x1.Idx → EReal) = W7 m ρ c (Proc.devRef .tc main_v20) from by
    dsimp only [W8, hostOps3]; read_fold).trans (carried7 m ρ c).fac
  b1 := (show (W8 m ρ c (Proc.devRef .tc main_arg3) : S16.Idx → EReal) = W7 m ρ c (Proc.devRef .tc main_arg3) from by
    dsimp only [W8, hostOps3]; read_fold).trans (carried7 m ρ c).b1
  w2 := (show (W8 m ρ c (Proc.devRef .tc main_arg4) : S16x7.Idx → EReal) = W7 m ρ c (Proc.devRef .tc main_arg4) from by
    dsimp only [W8, hostOps3]; read_fold).trans (carried7 m ρ c).w2
  b2 := (show (W8 m ρ c (Proc.devRef .tc main_arg5) : S7.Idx → EReal) = W7 m ρ c (Proc.devRef .tc main_arg5) from by
    dsimp only [W8, hostOps3]; read_fold).trans (carried7 m ρ c).b2

/-- The second aggregate. -/
theorem aggregate8 : (W8 m ρ c (Proc.devRef .tc main_v54) : S100000x7.Idx → EReal)
    = Host.scatterAdd scatter_S100000x7_S3300000x1_S3300000x7_1_0_0_1 zeros7 (wrapCol (dstVec (m ((c.tc : Thread nD τ).loc main_arg1))))
        (Host.gather gather_S100000x7_S3300000x1_S3300000x7_1_0_n_n_0_1_17 (scaledProduct (N := 100000) (K := 16) (C := 7) (hidden (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (dinvCol (wrapCol (dstVec (m ((c.tc : Thread nD τ).loc main_arg1)))))) (wrapCol (srcVec (m ((c.tc : Thread nD τ).loc main_arg1))))) := by
  rw [← product7 m ρ c, ← (carried7 m ρ c).src, ← (carried7 m ρ c).dst]
  dsimp only [W8, hostOps3]; read_fold <;> rfl

theorem biasRow8 : (W8 m ρ c (Proc.devRef .tc main_v55) : S1x7.Idx → EReal) = shapeCast S1x7 (m ((c.tc : Thread nD τ).loc main_arg5)) shapeCasts_S7_S1x7 := by
  rw [← (carried7 m ρ c).b2]
  dsimp only [W8, hostOps3]; read_fold <;> rfl

/-- THE RESULT ARRAY at the last boundary is the kernel program's value of the arguments. -/
theorem result9 : (W9 m ρ c (Proc.devRef .tc main_v56) : S100000x7.Idx → EReal)
    = kernelNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W9_arr m ρ c 3).trans ((Region3.arr_out (V8 m ρ) c).trans ?_)
  unfold Region3.result kernelNet
  show scaledBiasClamp (N := 100000) (C := 7) Region3.floor (W8 m ρ c (Proc.devRef .tc main_v54) : S100000x7.Idx → EReal) (W8 m ρ c (Proc.devRef .tc main_v55) : S1x7.Idx → EReal) (W8 m ρ c (Proc.devRef .tc main_v20) : S100000x1.Idx → EReal) = _
  rw [aggregate8 m ρ c, biasRow8 m ρ c, (carried8 m ρ c).fac]

end Cert.KernelIdeal.Fold

end
-- ==== Proof.RefValue.lean ====
/-
  The idealized reference program's result as one function of its arguments.

  The reference computes the same words and node factors from the edge words as the kernel program (source and
  destination words with the self loops appended, wrapped where negative, as columns; degrees; their guarded inverse
  square roots), and then each layer in the message form: the rows of X·W gathered at the sources, every gathered row
  scaled by the product of the factors gathered at its source and at its destination, accumulated at the
  destinations from zero, plus the bias on every row, clamped below at the constant whose word is zero. It computes
  the node factors twice, once per layer, by the same operations.
-/
import proofs.«156002_j63445256896634_2_alg».proof.Proof.RefRun
import Idealize.ShloMosaic.PureOps.Ideal

set_option maxRecDepth 16384

noncomputable section

namespace Cert.ReferenceIdeal.Net

open Cert.ReferenceIdeal Cert.ReferenceIdeal.Gen Idealize.ShloMosaic Idealize.ShloMosaic.TcCoe Idealize.SL.Sem

/-- The source words: every edge's, then every node's own number. -/
def srcVec (a1 : IVec S2x3200000 32) : IVec S3300000 32 :=
  concatenate S3300000 0 [⟨S3200000, shapeCast S3200000 (extractStridedSlice S1x3200000 ![0, 0] a1 slices_S2x3200000_S1x3200000_0_0) shapeCasts_S1x3200000_S3200000⟩, ⟨S100000, iotaInDim S100000 32 0⟩] concatenates_S3200000_S100000_S3300000_d0

/-- The destination words: every edge's, then every node's own number. -/
def dstVec (a1 : IVec S2x3200000 32) : IVec S3300000 32 :=
  concatenate S3300000 0 [⟨S3200000, shapeCast S3200000 (extractStridedSlice S1x3200000 ![1, 0] a1 slices_S2x3200000_S1x3200000_1_0) shapeCasts_S1x3200000_S3200000⟩, ⟨S100000, iotaInDim S100000 32 0⟩] concatenates_S3200000_S100000_S3300000_d0

/-- Words wrapped by the number of nodes where negative, as a column of start indices. -/
def wrapCol (v : IVec S3300000 32) : IVec S3300000x1 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- The degrees: ones accumulated, from zero, at the destination column. -/
def degVec (col : IVec S3300000x1 32) : FVec Ideal S100000 .f32 :=
  Host.scatterAdd scatter_S100000_S3300000x1_S3300000_n_0_0_1 (broadcastInDim S100000 ![] bcast_S_S100000 (constant S_ .f32 0x00000000#32)) col
    (broadcastInDim S3300000 ![] bcast_S_S3300000 (constant S_ .f32 0x3F800000#32))

/-- The node factors: the inverse square root of the degree where it is positive, zero elsewhere. -/
def dinvVec (col : IVec S3300000x1 32) : FVec Ideal S100000 .f32 :=
  select (cmpf .ogt (degVec col) (broadcastInDim S100000 ![] bcast_S_S100000 (constant S_ .f32 0x00000000#32))) (Host.rsqrt (degVec col))
    (broadcastInDim S100000 ![] bcast_S_S100000 (id (constant S_ .f32 0x00000000#32)))

/-- Per edge, the product of the factors of its two ends. -/
def edgeNorm (a1 : IVec S2x3200000 32) : FVec Ideal S3300000 .f32 :=
  mulf (Host.gather gather_S100000_S3300000x1_S3300000_n_0_n_n_0_1_1 (dinvVec (wrapCol (dstVec a1))) (wrapCol (srcVec a1)))
    (Host.gather gather_S100000_S3300000x1_S3300000_n_0_n_n_0_1_1 (dinvVec (wrapCol (dstVec a1))) (wrapCol (dstVec a1)))

/-- The first layer in the message form. -/
def hidden (x : FVec Ideal S100000x128 .f32) (a1 : IVec S2x3200000 32) (w1 : FVec Ideal S128x16 .f32) (b1 : FVec Ideal S16 .f32) : FVec Ideal S100000x16 .f32 :=
  maximumf
    (addf
      (Host.scatterAdd scatter_S100000x16_S3300000x1_S3300000x16_1_0_0_1 (broadcastInDim S100000x16 ![] bcast_S_S100000x16 (constant S_ .f32 0x00000000#32)) (wrapCol (dstVec a1))
        (mulf (Host.gather gather_S100000x16_S3300000x1_S3300000x16_1_0_n_n_0_1_116 (Host.dotGeneral dot_S100000x128_S128x16_S100000x16_1_0_0_1_n_n none x w1) (wrapCol (srcVec a1)))
          (broadcastInDim S3300000x16 ![0, 1] bcast_S3300000x1_S3300000x16_0_1 (broadcastInDim S3300000x1 ![0] bcast_S3300000_S3300000x1_0 (edgeNorm a1)))))
      (broadcastInDim S100000x16 ![0, 1] bcast_S1x16_S100000x16_0_1 (broadcastInDim S1x16 ![1] bcast_S16_S1x16_1 b1)))
    (broadcastInDim S100000x16 ![] bcast_S_S100000x16 (constant S_ .f32 0x00000000#32))

/-- The whole reference program's value: the second message-form layer on the first's result. -/
def refNet (x : FVec Ideal S100000x128 .f32) (a1 : IVec S2x3200000 32) (w1 : FVec Ideal S128x16 .f32) (b1 : FVec Ideal S16 .f32)
    (w2 : FVec Ideal S16x7 .f32) (b2 : FVec Ideal S7 .f32) : FVec Ideal S100000x7 .f32 :=
  maximumf
    (addf
      (Host.scatterAdd scatter_S100000x7_S3300000x1_S3300000x7_1_0_0_1 (broadcastInDim S100000x7 ![] bcast_S_S100000x7 (constant S_ .f32 0x00000000#32)) (wrapCol (dstVec a1))
        (mulf (Host.gather gather_S100000x7_S3300000x1_S3300000x7_1_0_n_n_0_1_17 (Host.dotGeneral dot_S100000x16_S16x7_S100000x7_1_0_0_1_n_n none (hidden x a1 w1 b1) w2) (wrapCol (srcVec a1)))
          (broadcastInDim S3300000x7 ![0, 1] bcast_S3300000x1_S3300000x7_0_1 (broadcastInDim S3300000x1 ![0] bcast_S3300000_S3300000x1_0 (edgeNorm a1)))))
      (broadcastInDim S100000x7 ![0, 1] bcast_S1x7_S100000x7_0_1 (broadcastInDim S1x7 ![1] bcast_S7_S1x7_1 b2)))
    (broadcastInDim S100000x7 ![] bcast_S_S100000x7 (constant S_ .f32 0x00000000#32))

/-- The run's composed term of the arguments IS that function: the same operations, named in stages. -/
theorem res_eq (m : (ℓ : Loc nD τ sig) → Buf (Elt Ideal) ℓ) (c : Dev nD) :
    Cert.ReferenceIdeal.ValueP.res_main_v108 (F := Ideal) m c
      = refNet (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v108
  rfl

end Cert.ReferenceIdeal.Net

end
-- ==== Proof.Bridge.lean ====
/-
  The idealized kernel program and the idealized reference program compute one function of the arguments.

  Both compute the same source and destination columns and the same node factors from the edge words (the same host
  operations; the two programs' dimension records are equal records). The kernel's layers are in the factored form,
  the reference's in the message form, and the layer law joins them, once per layer: what it needs is that every node
  factor is a nonnegative real, which holds because a degree is a finite count and the guarded inverse square root of
  a nonnegative real is a nonnegative real. The second layer's input is the first layer's result, equal on the two
  sides by the first application. No finiteness of the float arguments is used.
-/
import proofs.«156002_j63445256896634_2_alg».proof.Proof.KernelFold
import proofs.«156002_j63445256896634_2_alg».proof.Proof.RefValue
import proofs.«156002_j63445256896634_2_alg».proof.Proof.LibGraphLayer
import proofs.«156002_j63445256896634_2_alg».proof.Proof.LibColumn
import proofs.«156002_j63445256896634_2_alg».proof.Proof.LibRowBias

set_option maxRecDepth 16384

noncomputable section

namespace Cert.Bridge

open Idealize.ShloMosaic Idealize.ShloMosaic.ValueIdx Cert.GraphLayer

/-- The float word 0x3F800000 is the real number one. -/
theorem ofBits_one_f32 : Ideal.ofBits .f32 0x3F800000#32 = 1 := by
  simp [Ideal.ofBits, Ideal.ieee, -EReal.coe_mul]; norm_num

/-- The two programs' source columns are one term. -/
theorem srcCol_eq (a1 : IVec Cert.KernelIdeal.S2x3200000 32) : Cert.KernelIdeal.Fold.wrapCol (Cert.KernelIdeal.Fold.srcVec a1) = Cert.ReferenceIdeal.Net.wrapCol (Cert.ReferenceIdeal.Net.srcVec a1) := rfl
/-- The two programs' destination columns are one term. -/
theorem dstCol_eq (a1 : IVec Cert.KernelIdeal.S2x3200000 32) : Cert.KernelIdeal.Fold.wrapCol (Cert.KernelIdeal.Fold.dstVec a1) = Cert.ReferenceIdeal.Net.wrapCol (Cert.ReferenceIdeal.Net.dstVec a1) := rfl

/-- Every node factor is a nonnegative real. -/
theorem dinv_nonneg (col : IVec Cert.ReferenceIdeal.S3300000x1 32) (n : Fin 100000) :
    ∃ r : ℝ, 0 ≤ r ∧ Cert.ReferenceIdeal.Net.dinvVec col (ix1 n) = (r : EReal) := by
  unfold Cert.ReferenceIdeal.Net.dinvVec Cert.ReferenceIdeal.Net.degVec
  exact nodeFactor_nonneg_real (N := 100000) (M := 3300000) Cert.ReferenceIdeal.scatter_S100000_S3300000x1_S3300000_n_0_0_1
    Cert.ReferenceIdeal.Gen.scatter_S100000_S3300000x1_S3300000_n_0_0_1_wf rfl
    (broadcastInDim Cert.ReferenceIdeal.S100000 ![] Cert.ReferenceIdeal.Gen.bcast_S_S100000 (constant Cert.ReferenceIdeal.S_ .f32 0x00000000#32))
    (broadcastInDim Cert.ReferenceIdeal.S100000 ![] Cert.ReferenceIdeal.Gen.bcast_S_S100000 (constant Cert.ReferenceIdeal.S_ .f32 0x00000000#32))
    (broadcastInDim Cert.ReferenceIdeal.S100000 ![] Cert.ReferenceIdeal.Gen.bcast_S_S100000 (id (constant Cert.ReferenceIdeal.S_ .f32 0x00000000#32)))
    (fun _ => Ideal.ofBits_zero_f32) (fun _ => Ideal.ofBits_zero_f32) (fun _ => Ideal.ofBits_zero_f32)
    (broadcastInDim Cert.ReferenceIdeal.S3300000 ![] Cert.ReferenceIdeal.Gen.bcast_S_S3300000 (constant Cert.ReferenceIdeal.S_ .f32 0x3F800000#32)) (fun _ => ofBits_one_f32) col n

/-- The first layer: the kernel's factored form is the reference's message form. -/
theorem hidden_eq (x : FVec Ideal Cert.KernelIdeal.S100000x128 .f32) (a1 : IVec Cert.KernelIdeal.S2x3200000 32) (w1 : FVec Ideal Cert.KernelIdeal.S128x16 .f32) (b1 : FVec Ideal Cert.KernelIdeal.S16 .f32) :
    Cert.KernelIdeal.Fold.hidden x a1 w1 b1 = Cert.ReferenceIdeal.Net.hidden x a1 w1 b1 := by
  unfold Cert.KernelIdeal.Fold.hidden Cert.ReferenceIdeal.Net.hidden Cert.ReferenceIdeal.Net.edgeNorm
  rw [srcCol_eq, dstCol_eq]
  refine Eq.trans ?_ ((layer_eq (N := 100000) (K := 128) (C := 16) (M := 3300000) (by decide)
      Cert.KernelIdeal.gather_S100000x16_S3300000x1_S3300000x16_1_0_n_n_0_1_116 Cert.KernelIdeal.Gen.gather_S100000x16_S3300000x1_S3300000x16_1_0_n_n_0_1_116_wf rfl
      Cert.KernelIdeal.scatter_S100000x16_S3300000x1_S3300000x16_1_0_0_1 Cert.KernelIdeal.Gen.scatter_S100000x16_S3300000x1_S3300000x16_1_0_0_1_wf rfl
      Cert.ReferenceIdeal.gather_S100000_S3300000x1_S3300000_n_0_n_n_0_1_1 Cert.ReferenceIdeal.Gen.gather_S100000_S3300000x1_S3300000_n_0_n_n_0_1_1_wf rfl
      Cert.ReferenceIdeal.dot_S100000x128_S128x16_S100000x16_1_0_0_1_n_n rfl
      Cert.KernelIdeal.Region1.floor x w1 b1 (Cert.ReferenceIdeal.Net.dinvVec (Cert.ReferenceIdeal.Net.wrapCol (Cert.ReferenceIdeal.Net.dstVec a1))) (dinv_nonneg _)
      (Cert.ReferenceIdeal.Net.wrapCol (Cert.ReferenceIdeal.Net.srcVec a1)) (Cert.ReferenceIdeal.Net.wrapCol (Cert.ReferenceIdeal.Net.dstVec a1))
      Cert.KernelIdeal.Fold.zeros16 (fun _ => Ideal.ofBits_zero_f32)
      (shapeCast Cert.KernelIdeal.S1x16 b1 Cert.KernelIdeal.Gen.shapeCasts_S16_S1x16) (fun q => Cert.RowBias.asRow_apply b1 _ q)
      (Cert.KernelIdeal.Fold.dinvCol (Cert.ReferenceIdeal.Net.wrapCol (Cert.ReferenceIdeal.Net.dstVec a1))) (fun p => Cert.Column.shapeCast_a_a1_apply _ _ p 0)
      Cert.ReferenceIdeal.Gen.bcast_S3300000_S3300000x1_0 Cert.ReferenceIdeal.Gen.bcast_S3300000x1_S3300000x16_0_1 Cert.ReferenceIdeal.Gen.bcast_S16_S1x16_1 Cert.ReferenceIdeal.Gen.bcast_S1x16_S100000x16_0_1).trans ?_)
  · rfl
  · rfl

/-- The whole programs: two layers in a row on each side. -/
theorem net_eq (x : FVec Ideal Cert.KernelIdeal.S100000x128 .f32) (a1 : IVec Cert.KernelIdeal.S2x3200000 32) (w1 : FVec Ideal Cert.KernelIdeal.S128x16 .f32) (b1 : FVec Ideal Cert.KernelIdeal.S16 .f32)
    (w2 : FVec Ideal Cert.KernelIdeal.S16x7 .f32) (b2 : FVec Ideal Cert.KernelIdeal.S7 .f32) :
    Cert.KernelIdeal.Fold.kernelNet x a1 w1 b1 w2 b2 = Cert.ReferenceIdeal.Net.refNet x a1 w1 b1 w2 b2 := by
  unfold Cert.KernelIdeal.Fold.kernelNet Cert.ReferenceIdeal.Net.refNet Cert.ReferenceIdeal.Net.edgeNorm
  rw [hidden_eq, srcCol_eq, dstCol_eq]
  refine Eq.trans ?_ ((layer_eq (N := 100000) (K := 16) (C := 7) (M := 3300000) (by decide)
      Cert.KernelIdeal.gather_S100000x7_S3300000x1_S3300000x7_1_0_n_n_0_1_17 Cert.KernelIdeal.Gen.gather_S100000x7_S3300000x1_S3300000x7_1_0_n_n_0_1_17_wf rfl
      Cert.KernelIdeal.scatter_S100000x7_S3300000x1_S3300000x7_1_0_0_1 Cert.KernelIdeal.Gen.scatter_S100000x7_S3300000x1_S3300000x7_1_0_0_1_wf rfl
      Cert.ReferenceIdeal.gather_S100000_S3300000x1_S3300000_n_0_n_n_0_1_1 Cert.ReferenceIdeal.Gen.gather_S100000_S3300000x1_S3300000_n_0_n_n_0_1_1_wf rfl
      Cert.ReferenceIdeal.dot_S100000x16_S16x7_S100000x7_1_0_0_1_n_n rfl
      Cert.KernelIdeal.Region3.floor (Cert.ReferenceIdeal.Net.hidden x a1 w1 b1) w2 b2 (Cert.ReferenceIdeal.Net.dinvVec (Cert.ReferenceIdeal.Net.wrapCol (Cert.ReferenceIdeal.Net.dstVec a1))) (dinv_nonneg _)
      (Cert.ReferenceIdeal.Net.wrapCol (Cert.ReferenceIdeal.Net.srcVec a1)) (Cert.ReferenceIdeal.Net.wrapCol (Cert.ReferenceIdeal.Net.dstVec a1))
      Cert.KernelIdeal.Fold.zeros7 (fun _ => Ideal.ofBits_zero_f32)
      (shapeCast Cert.KernelIdeal.S1x7 b2 Cert.KernelIdeal.Gen.shapeCasts_S7_S1x7) (fun q => Cert.RowBias.asRow_apply b2 _ q)
      (Cert.KernelIdeal.Fold.dinvCol (Cert.ReferenceIdeal.Net.wrapCol (Cert.ReferenceIdeal.Net.dstVec a1))) (fun p => Cert.Column.shapeCast_a_a1_apply _ _ p 0)
      Cert.ReferenceIdeal.Gen.bcast_S3300000_S3300000x1_0 Cert.ReferenceIdeal.Gen.bcast_S3300000x1_S3300000x7_0_1 Cert.ReferenceIdeal.Gen.bcast_S7_S1x7_1 Cert.ReferenceIdeal.Gen.bcast_S1x7_S100000x7_0_1).trans ?_)
  · rfl
  · rfl

end Cert.Bridge

end
-- ==== Proof.lean ====
/-
  A two-layer graph convolution on 100000 nodes and 3200000 edges (plus one self loop per node): a kernel program of
  four grid regions with host gathers and scatters between them, against a plain reference.

  Each layer maps node features X to  max( D^{-1/2} (A + I) D^{-1/2} (X·W) + b, 0 ): the rows of X·W are gathered at
  the edges' sources, scaled by the product of the inverse square roots of the degrees of the edge's two ends, and
  accumulated at the edges' destinations. The reference does exactly that, edge by edge. The kernel program factors
  the scaling: it scales the rows of X·W by the source's factor once per node (inside the region that multiplies),
  accumulates the gathered rows unscaled, and scales the accumulated row by the destination's factor once per node
  (inside the region that adds the bias and clamps). The two agree at the exact (extended-real) values because the
  node factors are nonnegative reals, and a nonnegative real factor distributes over a finite sum of extended reals;
  the product's associativity and commutativity do the rest. The matrix products (the vector unit's product into a
  zero accumulator after a change of float format, and the host's dot_general) are the same sums at the exact values.

  The frames of the two kernel programs are the generated ones; the reference's frame is its run with the result
  dropped. The idealization rewrote nothing, so there is nothing to preserve. For the value claim the kernel program's
  run is stated with its result array named (KernelRun), each region's result array is read as one whole-array
  function of the region's arrays (Region0 … Region3), the boundary contents are read back to the arguments
  (KernelFold), the reference's composed term is named in stages (RefValue), and the two functions are joined by the
  layer law (LibGraphLayer, Bridge). The precondition is not used by the value claim: the law needs no finiteness.
-/
import proofs.«156002_j63445256896634_2_alg».proof.Defs
import proofs.«156002_j63445256896634_2_alg».proof.Proof.Gen.Kernel
import proofs.«156002_j63445256896634_2_alg».proof.Proof.Gen.Kernel.Skeleton
import proofs.«156002_j63445256896634_2_alg».proof.Proof.Gen.Kernel.Launch
import proofs.«156002_j63445256896634_2_alg».proof.Proof.Gen.Kernel.Points
import proofs.«156002_j63445256896634_2_alg».proof.Proof.Gen.Kernel.Frame
import proofs.«156002_j63445256896634_2_alg».proof.Proof.Gen.KernelIdeal
import proofs.«156002_j63445256896634_2_alg».proof.Proof.Gen.KernelIdeal.Skeleton
import proofs.«156002_j63445256896634_2_alg».proof.Proof.Gen.KernelIdeal.Launch
import proofs.«156002_j63445256896634_2_alg».proof.Proof.Gen.KernelIdeal.Points
import proofs.«156002_j63445256896634_2_alg».proof.Proof.Gen.KernelIdeal.Frame
import proofs.«156002_j63445256896634_2_alg».proof.Proof.Gen.ReferenceIdeal
import proofs.«156002_j63445256896634_2_alg».proof.Proof.Gen.Pre_finite_inputs
import proofs.«156002_j63445256896634_2_alg».proof.Proof.RefRun
import proofs.«156002_j63445256896634_2_alg».proof.Proof.KernelRun
import proofs.«156002_j63445256896634_2_alg».proof.Proof.KernelFold
import proofs.«156002_j63445256896634_2_alg».proof.Proof.RefValue
import proofs.«156002_j63445256896634_2_alg».proof.Proof.Bridge
import Idealize.ShloMosaic.Adequacy
import Idealize.ShloMosaic.Init

noncomputable section

namespace Cert.Proof

open Idealize.ShloMosaic Idealize.ShloMosaic.TcCoe Idealize.SL.Sem

/-- The kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- At the exact values the kernel program's result array ends at two factored layers of its arguments, the
    reference's at two message-form layers of arguments that agree: one function. -/
theorem algebraic : Cert.algebraic_KernelIdeal_ReferenceIdeal := by
  intro m ρ m' ρ' _ hagree
  refine ⟨fun c => Cert.KernelIdeal.Fold.kernelNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.Fold.result9 m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5⟩ := hagree c
    rw [Cert.ReferenceIdeal.Net.res_eq m' c, e0, e1, e2, e3, e4, e5]
    exact (Cert.Bridge.net_eq _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
